-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S10x128 .f32) (main_v50 : FVec F S10x128 .f32) : IVec S_ 1 :=
  let main_v51 : IVec S10x128 1 := cmpf .olt main_v49 main_v50
  let main_c_19 : IVec S_ 1 := constantI S_ 1 1#1
  let main_v52 : IVec S_ 1 := (fun x v => Host.reduce IntOp.andi x v reducesTo_S10x128_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S128x128 .f32) (main_arg10 : FVec F S128 .f32) (main_arg11 : FVec F S128x128 .f32) (main_arg12 : FVec F S10x128 .f32) (main_arg13 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S10x128 .f32 := Host.absf main_arg12
  let main_cst_18 : FVec F S_ .f32 := constant S_ .f32 0x7F800000#32
  let main_v50 : FVec F S10x128 .f32 := broadcastInDim S10x128 ![] bcast_S_S10x128 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S10x128 .f32) (main_arg13 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S10x128 .f32) (main_arg13 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2000x128 : Shape := ⟨2, ![2000, 128]⟩
abbrev S64x128 : Shape := ⟨2, ![64, 128]⟩
abbrev S100000x1 : Shape := ⟨2, ![100000, 1]⟩
abbrev S128x10 : Shape := ⟨2, ![128, 10]⟩
abbrev S1x10 : Shape := ⟨2, ![1, 10]⟩
abbrev S64x10 : Shape := ⟨2, ![64, 10]⟩

abbrev nBuf : Space → Nat
  | .hbm => 82
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S10x128, .f32⟩
  | .hbm, ⟨13, _⟩ => ⟨S10, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S100000x128, .bf16⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .bf16⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S128x128, .f32⟩
  | .hbm, ⟨34, _⟩ => ⟨S128x128, .f32⟩
  | .hbm, ⟨35, _⟩ => ⟨S1x128, .f32⟩
  | .hbm, ⟨36, _⟩ => ⟨S100000x128, .f32⟩
  | .hbm, ⟨37, _⟩ => ⟨S100000x128, .bf16⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .bf16⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S128x128, .f32⟩
  | .hbm, ⟨53, _⟩ => ⟨S128x128, .f32⟩
  | .hbm, ⟨54, _⟩ => ⟨S1x128, .f32⟩
  | .hbm, ⟨55, _⟩ => ⟨S100000x128, .f32⟩
  | .hbm, ⟨56, _⟩ => ⟨S100000x128, .bf16⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .bf16⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S128x128, .f32⟩
  | .hbm, ⟨72, _⟩ => ⟨S128x128, .f32⟩
  | .hbm, ⟨73, _⟩ => ⟨S1x128, .f32⟩
  | .hbm, ⟨74, _⟩ => ⟨S100000x128, .f32⟩
  | .hbm, ⟨75, _⟩ => ⟨S_, .f32⟩
  | .hbm, ⟨76, _⟩ => ⟨S64x128, .f32⟩
  | .hbm, ⟨77, _⟩ => ⟨S100000x1, .i32⟩
  | .hbm, ⟨78, _⟩ => ⟨S64x128, .f32⟩
  | .hbm, ⟨79, _⟩ => ⟨S128x10, .f32⟩
  | .hbm, ⟨80, _⟩ => ⟨S1x10, .f32⟩
  | .hbm, ⟨81, _⟩ => ⟨S64x10, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S64x128, .f32⟩
  | .local _ .vmem, ⟨28, _⟩ => ⟨S128x10, .f32⟩
  | .local _ .vmem, ⟨29, _⟩ => ⟨S1x10, .f32⟩
  | .local _ .vmem, ⟨30, _⟩ => ⟨S64x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_4 : Ref sig .tc := ⟨.hbm, 57, rfl⟩
abbrev main_v37 : Ref sig .tc := ⟨.hbm, 58, rfl⟩
abbrev main_v38 : Ref sig .tc := ⟨.hbm, 59, rfl⟩
abbrev main_c_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S64x128 : S_.BroadcastsInDim S64x128 (![] : Fin 0 → Fin S64x128.rank)
  bcast_S100000_S100000x1_0 : S100000.BroadcastsInDim S100000x1 (![0] : Fin 1 → Fin S100000x1.rank)
  transposes_S10x128_S128x10_1_0 : S10x128.Transposes [1, 0] S128x10
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  scatter_S64x128_S100000x1_S100000x128_1_0_0_1_wf : ScatterDims.WF S64x128 S100000x1 S100000x128 [1] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x10.size a ≤ S128x10.size a
  hwx3_1 : ∀ i : grid3.Coords, EltTy.bits .f32 = 32 ∨ (Rect.block (s := S128x10) S128x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x10.size a ≤ S64x10.size a
  hwx3_3 : ∀ i : grid3.Coords, EltTy.bits .f32 = 32 ∨ (Rect.block (s := S64x10) S64x10.size (cc3_transform_3 i) (hinb3_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v15) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v55) S128x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S64x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S64x128 : Shape := ⟨2, ![64, 128]⟩
abbrev S100000x1 : Shape := ⟨2, ![100000, 1]⟩
abbrev S128x10 : Shape := ⟨2, ![128, 10]⟩
abbrev S64x10 : Shape := ⟨2, ![64, 10]⟩
abbrev S1x10 : Shape := ⟨2, ![1, 10]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S10x128, .f32⟩
  | .hbm, ⟨13, _⟩ => ⟨S10, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S128x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S128x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S128x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S128x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S128x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S64x128, .f32⟩
  | .hbm, ⟨89, _⟩ => ⟨S100000x1, .i32⟩
  | .hbm, ⟨90, _⟩ => ⟨S64x128, .f32⟩
  | .hbm, ⟨91, _⟩ => ⟨S128x10, .f32⟩
  | .hbm, ⟨92, _⟩ => ⟨S64x10, .f32⟩
  | .hbm, ⟨93, _⟩ => ⟨S1x10, .f32⟩
  | .hbm, ⟨94, _⟩ => ⟨S64x10, .f32⟩
  | .hbm, ⟨95, _⟩ => ⟨S64x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_cst : Ref sig .tc := ⟨.hbm, 39, rfl⟩
abbrev main_call0_v0 : Ref sig .tc := ⟨.hbm, 40, rfl⟩
abbrev main_v22 : Ref sig .tc := ⟨.hbm, 41, rfl⟩
abbrev main_c_1 : Ref sig .tc := ⟨.hbm, 42, rfl⟩
abbrev main_v23 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call1_cst : Ref sig .tc := ⟨.hbm, 63, rfl⟩
abbrev main_call1_v0 : Ref sig .tc := ⟨.hbm, 64, rfl⟩
abbrev main_v41 : Ref sig .tc := ⟨.hbm, 65, rfl⟩
abbrev main_c_4 : Ref sig .tc := ⟨.hbm, 66, rfl⟩
abbrev main_v42 : Ref sig .tc := ⟨.hbm, 67, rfl⟩
abbrev main_v43 : Ref sig .tc := ⟨.hbm, 68, rfl⟩
abbrev main_c_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_7 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  transposes_S10x128_S128x10_1_0 : S10x128.Transposes [1, 0] S128x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  dot_S64x128_S128x10_S64x10_1_0_0_1_n_n_wf : DotDims.WF S64x128 S128x10 S64x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.WholeRun.lean ====
/-
  The kernel program's run, with every buffer named.

  The program is four stretches of host operations, each followed by one gridded kernel. The contents of a core's
  buffers at the eight boundaries between them are a fold from the launch memory: a host stretch rewrites the
  buffers its operations write and leaves the rest; a kernel's pass over its grid leaves its output array at the
  accumulated write-backs of its blocks and every other buffer as it was. Every weakly fair execution terminates
  without a fault, and at the end EVERY buffer that is not scoped to a kernel holds the fold's last value —
  the arguments (which nothing writes) and the result array alike.
-/
import proofs.«143830_j79628693668166_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any launch memory with zero counters every weakly fair execution terminates, nothing faults, and each
    unscoped buffer `b` of each core `c` ends holding the last boundary's contents `W8 m ρ c b`. -/
theorem run : θ_run defs (onTc (τ := τ) (main (F := F))) ⟨m, fun _ => 0, ρ⟩ (fun r => ∀ c : Dev nD, ∀ b : Ref sig .tc,
      ¬ (Proc.devRef .tc b : DevRef τ sig).isScoped →
      r.2.mem ((c.tc : Thread nD τ).loc b) = W8 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c b hb => h c _ (mem_uc b hb))

end Cert.KernelIdeal.Whole

end
-- ==== Proof.Layer.lean ====
/-
  One message-passing layer and the pooled read-out, as functions of arrays of extended reals, entry by entry.

  A layer takes the neighbour sums `A` and the node features `H` (one row per node, 128 features), two 128 × 128
  matrices `WL`, `WR` (already laid out as input-feature × output-feature) and a bias `b`, and gives at node `p`,
  feature `q`

      (∑ₖ A[p,k] · WL[k,q]  +  ∑ₖ H[p,k] · WR[k,q])  +  b[q],

  optionally clamped below at zero. The read-out takes the per-graph sums `P` (64 graphs), a 128 × 10 matrix and a bias:
  ∑ₖ P[g,k] · W[k,c] + b[c]. Sums and products are those of the extended reals; only commutativity and
  associativity of addition are ever used to compare two arrangements of these terms, so nothing here asks an
  entry to be finite.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The affine part of a layer at row `p` (of `n` rows) and output feature `q`. -/
def lin (n : Nat) (A H : (⟨2, ![n, 128]⟩ : Shape).Idx → EReal) (WL WR : (⟨2, ![128, 128]⟩ : Shape).Idx → EReal)
    (b : Fin 128 → EReal) (p : Fin n) (q : Fin 128) : EReal :=
  (∑ k : Fin 128, A (ix2 p k) * WL (ix2 k q) + ∑ k : Fin 128, H (ix2 p k) * WR (ix2 k q)) + b q

/-- The activation: the maximum with zero (zero written as the float word both programs carry), or nothing. -/
def act (relu : Bool) (x : EReal) : EReal :=
  if relu then max x (Ideal.ofBits .f32 0x00000000#32) else x

/-- A layer over all 100000 nodes. -/
def layer (relu : Bool) (A H : (⟨2, ![100000, 128]⟩ : Shape).Idx → EReal) (WL WR : (⟨2, ![128, 128]⟩ : Shape).Idx → EReal)
    (b : Fin 128 → EReal) : (⟨2, ![100000, 128]⟩ : Shape).Idx → EReal :=
  fun i => act relu (lin 100000 A H WL WR b (i 0) (i 1))

/-- The read-out at graph `p` and class `q`. -/
def outAt (P : (⟨2, ![64, 128]⟩ : Shape).Idx → EReal) (W : (⟨2, ![128, 10]⟩ : Shape).Idx → EReal) (b : Fin 10 → EReal)
    (p : Fin 64) (q : Fin 10) : EReal :=
  ∑ k : Fin 128, P (ix2 p k) * W (ix2 k q) + b q

/-- The read-out over all 64 graphs. -/
def out (P : (⟨2, ![64, 128]⟩ : Shape).Idx → EReal) (W : (⟨2, ![128, 10]⟩ : Shape).Idx → EReal) (b : Fin 10 → EReal) :
    (⟨2, ![64, 10]⟩ : Shape).Idx → EReal :=
  fun i => outAt P W b (i 0) (i 1)

/-- Two layers agree when their arrays do: the form in which a block of one array is compared with a block of another. -/
theorem lin_congr (n n' : Nat) (A H : (⟨2, ![n, 128]⟩ : Shape).Idx → EReal) (A' H' : (⟨2, ![n', 128]⟩ : Shape).Idx → EReal)
    (WL WR WL' WR' : (⟨2, ![128, 128]⟩ : Shape).Idx → EReal) (b b' : Fin 128 → EReal) (p : Fin n) (p' : Fin n') (q : Fin 128)
    (hA : ∀ k : Fin 128, A (ix2 p k) = A' (ix2 p' k)) (hH : ∀ k : Fin 128, H (ix2 p k) = H' (ix2 p' k))
    (hL : ∀ k : Fin 128, WL (ix2 k q) = WL' (ix2 k q)) (hR : ∀ k : Fin 128, WR (ix2 k q) = WR' (ix2 k q)) (hb : b q = b' q) :
    lin n A H WL WR b p q = lin n' A' H' WL' WR' b' p' q := by
  unfold lin
  rw [hb]
  congr 2
  · exact Finset.sum_congr rfl fun k _ => by rw [hA k, hL k]
  · exact Finset.sum_congr rfl fun k _ => by rw [hH k, hR k]

end Cert.Sage

end
-- ==== Proof.Payload.lean ====
/-
  What each kernel body stores, read at one entry of its block.

  The three layer bodies load a block of neighbour sums, the same rows of node features, two whole 128 × 128
  matrices and a 1 × 128 bias row; they narrow the four matrices' formats (no change of value over the extended
  reals), multiply on the matrix unit into zero accumulators, add the two products, add the bias row to every row
  and (first two layers) take the maximum with zero. At row `p`, feature `q` of the block that is the layer
  function `Cert.Sage.lin` of the loaded blocks, activated. The read-out body is one product plus a bias row.
  A matrix-unit product into a zero accumulator is the plain sum over the contracted axis (the accumulator's zero
  word is the real zero), re-indexed from the dot's own contraction index to `Fin 128`.
-/
import proofs.«143830_j79628693668166_2_alg».proof.Proof.Gen.KernelIdeal.Skeleton
import proofs.«143830_j79628693668166_2_alg».proof.Proof.Layer
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- The dot's operand positions at output entry `i` and contraction index `k`, axis by axis: the left operand is
    read at (row of `i`, `k`), the right at (`k`, column of `i`). -/
theorem lhs2000_0 (i : S2000x128.Idx) (k : dot_S2000x128_S128x128_S2000x128_1_0_0_1_n_n.contr.Idx) : (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs2000_1 (i : S2000x128.Idx) (k : dot_S2000x128_S128x128_S2000x128_1_0_0_1_n_n.contr.Idx) : (dot_S2000x128_S128x128_S2000x128_1_0_0_1_n_n.lhsIdx i k 1).val = (k ⟨0, by decide⟩).val :=
  dot_S2000x128_S128x128_S2000x128_1_0_0_1_n_n.lhsIdx_val_of_single rfl i k
theorem rhs2000_0 (i : S2000x128.Idx) (k : dot_S2000x128_S128x128_S2000x128_1_0_0_1_n_n.contr.Idx) : (dot_S2000x128_S128x128_S2000x128_1_0_0_1_n_n.rhsIdx i k 0).val = (k ⟨0, by decide⟩).val :=
  dot_S2000x128_S128x128_S2000x128_1_0_0_1_n_n.rhsIdx_val_of_single rfl i k
theorem rhs2000_1 (i : S2000x128.Idx) (k : dot_S2000x128_S128x128_S2000x128_1_0_0_1_n_n.contr.Idx) : (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block product on the matrix unit into a zero accumulator, at row `p` and column `q`: the sum over the 128
    contracted positions of left entry (p, k) times right entry (k, q). -/
theorem mm2000 (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs2000_0 _ _
    | ⟨1, _⟩ => exact (lhs2000_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs2000_0 _ _).trans hk
    | ⟨1, _⟩ => exact rhs2000_1 _ _)
  rw [el, er]

/-- The bias row spread over the 2000 rows of a block, at (p, q): the row's entry q. -/
theorem biasRow2000 (v : FVec Ideal S1x128 .f32) (p : Fin 2000) (q : Fin 128) :
    broadcastTo S2000x128 v broadcasts_S1x128_S2000x128 (ix2 p q) = v (ix2 0 q) :=
  broadcastTo_apply v broadcasts_S1x128_S2000x128 (ix2 p q) (ix2 0 q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

/-- The first layer's body at an entry of its block. -/
theorem k0_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q)
      = Cert.Sage.act true (Cert.Sage.lin 2000 x0 x1 x2 x3 (fun q => x4 (ix2 0 q)) p q) := by
  unfold k0_pay1
  simp only [shapeCast_self]
  show max ((matmul (F := Ideal) dot_S2000x128_S128x128_S2000x128_1_0_0_1_n_n none (truncf (F := Ideal) .bf16 x0 bitsLt_bf16_f32) (truncf (F := Ideal) .bf16 x2 bitsLt_bf16_f32) (constant (F := Ideal) S2000x128 .f32 0x00000000#32) (ix2 p q)
      + matmul (F := Ideal) dot_S2000x128_S128x128_S2000x128_1_0_0_1_n_n none (truncf (F := Ideal) .bf16 x1 bitsLt_bf16_f32) (truncf (F := Ideal) .bf16 x3 bitsLt_bf16_f32) (constant (F := Ideal) S2000x128 .f32 0x00000000#32) (ix2 p q))
      + broadcastTo S2000x128 x4 broadcasts_S1x128_S2000x128 (ix2 p q)) (Ideal.ofBits .f32 0x00000000#32) = _
  rw [mm2000, mm2000, biasRow2000]
  rfl

/-- The second layer's body at an entry of its block (the same arithmetic as the first's). -/
theorem k1_apply (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q)
      = Cert.Sage.act true (Cert.Sage.lin 2000 x0 x1 x2 x3 (fun q => x4 (ix2 0 q)) p q) := by
  unfold k1_pay1
  simp only [shapeCast_self]
  show max ((matmul (F := Ideal) dot_S2000x128_S128x128_S2000x128_1_0_0_1_n_n none (truncf (F := Ideal) .bf16 x0 bitsLt_bf16_f32) (truncf (F := Ideal) .bf16 x2 bitsLt_bf16_f32) (constant (F := Ideal) S2000x128 .f32 0x00000000#32) (ix2 p q)
      + matmul (F := Ideal) dot_S2000x128_S128x128_S2000x128_1_0_0_1_n_n none (truncf (F := Ideal) .bf16 x1 bitsLt_bf16_f32) (truncf (F := Ideal) .bf16 x3 bitsLt_bf16_f32) (constant (F := Ideal) S2000x128 .f32 0x00000000#32) (ix2 p q))
      + broadcastTo S2000x128 x4 broadcasts_S1x128_S2000x128 (ix2 p q)) (Ideal.ofBits .f32 0x00000000#32) = _
  rw [mm2000, mm2000, biasRow2000]
  rfl

/-- The third layer's body at an entry of its block: the affine part alone, no maximum. -/
theorem k2_apply (x0 x1 : Vec Ideal S2000x128 .f32) (x2 x3 : Vec Ideal S128x128 .f32) (x4 : Vec Ideal S1x128 .f32)
    (p : Fin 2000) (q : Fin 128) :
    k2_pay1 (F := Ideal) x0 x1 x2 x3 x4 (ix2 p q)
      = Cert.Sage.act false (Cert.Sage.lin 2000 x0 x1 x2 x3 (fun q => x4 (ix2 0 q)) p q) := by
  unfold k2_pay1
  simp only [shapeCast_self]
  show (matmul (F := Ideal) dot_S2000x128_S128x128_S2000x128_1_0_0_1_n_n none (truncf (F := Ideal) .bf16 x0 bitsLt_bf16_f32) (truncf (F := Ideal) .bf16 x2 bitsLt_bf16_f32) (constant (F := Ideal) S2000x128 .f32 0x00000000#32) (ix2 p q)
      + matmul (F := Ideal) dot_S2000x128_S128x128_S2000x128_1_0_0_1_n_n none (truncf (F := Ideal) .bf16 x1 bitsLt_bf16_f32) (truncf (F := Ideal) .bf16 x3 bitsLt_bf16_f32) (constant (F := Ideal) S2000x128 .f32 0x00000000#32) (ix2 p q))
      + broadcastTo S2000x128 x4 broadcasts_S1x128_S2000x128 (ix2 p q) = _
  rw [mm2000, mm2000, biasRow2000]
  rfl

/-- The read-out product's operand positions, axis by axis. -/
theorem lhs64_0 (i : S64x10.Idx) (k : dot_S64x128_S128x10_S64x10_1_0_0_1_n_n.contr.Idx) : (dot_S64x128_S128x10_S64x10_1_0_0_1_n_n.lhsIdx i k 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl
theorem lhs64_1 (i : S64x10.Idx) (k : dot_S64x128_S128x10_S64x10_1_0_0_1_n_n.contr.Idx) : (dot_S64x128_S128x10_S64x10_1_0_0_1_n_n.lhsIdx i k 1).val = (k ⟨0, by decide⟩).val :=
  dot_S64x128_S128x10_S64x10_1_0_0_1_n_n.lhsIdx_val_of_single rfl i k
theorem rhs64_0 (i : S64x10.Idx) (k : dot_S64x128_S128x10_S64x10_1_0_0_1_n_n.contr.Idx) : (dot_S64x128_S128x10_S64x10_1_0_0_1_n_n.rhsIdx i k 0).val = (k ⟨0, by decide⟩).val :=
  dot_S64x128_S128x10_S64x10_1_0_0_1_n_n.rhsIdx_val_of_single rfl i k
theorem rhs64_1 (i : S64x10.Idx) (k : dot_S64x128_S128x10_S64x10_1_0_0_1_n_n.contr.Idx) : (dot_S64x128_S128x10_S64x10_1_0_0_1_n_n.rhsIdx i k 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

/-- The read-out product into a zero accumulator at graph `p`, class `q`: the sum over the 128 features. -/
theorem mm64 (l : FVec Ideal S64x128 .bf16) (r : FVec Ideal S128x10 .bf16) (p : Fin 64) (q : Fin 10) :
    matmul dot_S64x128_S128x10_S64x10_1_0_0_1_n_n none l r (constant S64x10 .f32 0x00000000#32) (ix2 p q)
      = ∑ k : Fin 128, l (ix2 p k) * r (ix2 k q) := by
  simp only [matmul]
  rw [Ideal.matmul_constant_zero_apply, ← Equiv.sum_comp (contrEquiv1 dot_S64x128_S128x10_S64x10_1_0_0_1_n_n 128 rfl rfl).symm]
  refine Finset.sum_congr rfl fun k _ => ?_
  have hk := contrEquiv1_symm_val dot_S64x128_S128x10_S64x10_1_0_0_1_n_n 128 rfl rfl k
  have el : dot_S64x128_S128x10_S64x10_1_0_0_1_n_n.lhsIdx (ix2 p q) ((contrEquiv1 dot_S64x128_S128x10_S64x10_1_0_0_1_n_n 128 rfl rfl).symm k) = ix2 p k := funext fun a => Fin.ext (by
    match a with
    | ⟨0, _⟩ => exact lhs64_0 _ _
    | ⟨1, _⟩ => exact (lhs64_1 _ _).trans hk)
  have er : dot_S64x128_S128x10_S64x10_1_0_0_1_n_n.rhsIdx (ix2 p q) ((contrEquiv1 dot_S64x128_S128x10_S64x10_1_0_0_1_n_n 128 rfl rfl).symm k) = ix2 k q := funext fun a => Fin.ext (by
    match a with
    | ⟨0, _⟩ => exact (rhs64_0 _ _).trans hk
    | ⟨1, _⟩ => exact rhs64_1 _ _)
  rw [el, er]

/-- The read-out's bias row spread over the 64 graphs, at (p, q): the row's entry q. -/
theorem biasRow64 (v : FVec Ideal S1x10 .f32) (p : Fin 64) (q : Fin 10) :
    broadcastTo S64x10 v broadcasts_S1x10_S64x10 (ix2 p q) = v (ix2 0 q) :=
  broadcastTo_apply v broadcasts_S1x10_S64x10 (ix2 p q) (ix2 0 q) (fun a => by
    match a with
    | ⟨0, _⟩ => show (0 : Nat) = if (1 : Nat) = 1 then 0 else p.val; rw [if_pos rfl]
    | ⟨1, _⟩ => show q.val = if (10 : Nat) = 1 then 0 else q.val; rw [if_neg (by decide)])

/-- The read-out body at an entry. -/
theorem k3_apply (x0 : Vec Ideal S64x128 .f32) (x1 : Vec Ideal S128x10 .f32) (x2 : Vec Ideal S1x10 .f32)
    (p : Fin 64) (q : Fin 10) :
    k3_pay1 (F := Ideal) x0 x1 x2 (ix2 p q) = Cert.Sage.outAt x0 x1 (fun q => x2 (ix2 0 q)) p q := by
  unfold k3_pay1
  simp only [shapeCast_self]
  show matmul (F := Ideal) dot_S64x128_S128x10_S64x10_1_0_0_1_n_n none (truncf (F := Ideal) .bf16 x0 bitsLt_bf16_f32) (truncf (F := Ideal) .bf16 x1 bitsLt_bf16_f32) (constant (F := Ideal) S64x10 .f32 0x00000000#32) (ix2 p q)
      + broadcastTo S64x10 x2 broadcasts_S1x10_S64x10 (ix2 p q) = _
  rw [mm64, biasRow64]
  rfl

end Cert.KernelIdeal.Body

end
-- ==== Proof.Region0.lean ====
/-
  Layer 1's kernel, read as one function of the arrays it is launched on.

  The grid has 50 points. At point `t` the kernel is handed rows 2000·t … 2000·t + 1999 of the neighbour sums and of
  the node features, both 128 × 128 matrices and the bias row whole, and writes rows 2000·t … 2000·t + 1999 of the
  output. An entry (r, q) of the output therefore depends on row r of the two row-blocked arrays, column q of the two
  matrices and entry q of the bias: it is `Cert.Sage.layer` of the five arrays at (r, q), whichever point wrote it.
  The 50 row blocks tile the 100000 rows (row r belongs to point r / 2000), so after the last point the whole output
  array is `Cert.Sage.layer` of the arrays as the kernel found them.
-/
import proofs.«143830_j79628693668166_2_alg».proof.Proof.Gen.KernelIdeal.Frame
import proofs.«143830_j79628693668166_2_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Which block each window shows at point `t`: the two row-blocked inputs and the output show block row `t`, the
    matrices and the bias their only block. Decided over the 50 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The neighbour-sum block at point `t` is rows 2000·t … of its array. -/
theorem blk_0 (c : Dev nD) (t : Fin cfg0.N) (x : S2000x128.Idx) (i : S100000x128.Idx)
    (h0 : (i 0).val = 2000 * t.val + (x 0).val) (h1 : (i 1).val = (x 1).val) :
    (iblk0 V c 0 t : Vec Ideal S2000x128 .f32) x = (V c main_v15 : S100000x128.Idx → EReal) i := by
  obtain ⟨e0, e1, -⟩ := idx_facts t
  unfold iblk0
  rw [View.read_apply]
  show (V c main_v15 : S100000x128.Idx → EReal) _ = _
  refine congrArg (V c main_v15 : S100000x128.Idx → EReal) (funext fun a => Fin.ext ?_)
  match a with
  | ⟨0, _⟩ => show win0_0.index t 0 * 2000 + 1 * (x 0).val = (i 0).val; rw [e0, h0]; omega
  | ⟨1, _⟩ => show win0_0.index t 1 * 128 + 1 * (x 1).val = (i 1).val; rw [e1, h1]; omega

/-- The node-feature block at point `t` is rows 2000·t … of its array. -/
theorem blk_1 (c : Dev nD) (t : Fin cfg0.N) (x : S2000x128.Idx) (i : S100000x128.Idx)
    (h0 : (i 0).val = 2000 * t.val + (x 0).val) (h1 : (i 1).val = (x 1).val) :
    (iblk0 V c 1 t : Vec Ideal S2000x128 .f32) x = (V c main_arg0 : S100000x128.Idx → EReal) i := by
  obtain ⟨-, -, e0, e1, -⟩ := idx_facts t
  unfold iblk0
  rw [View.read_apply]
  show (V c main_arg0 : S100000x128.Idx → EReal) _ = _
  refine congrArg (V c main_arg0 : S100000x128.Idx → EReal) (funext fun a => Fin.ext ?_)
  match a with
  | ⟨0, _⟩ => show win0_1.index t 0 * 2000 + 1 * (x 0).val = (i 0).val; rw [e0, h0]; omega
  | ⟨1, _⟩ => show win0_1.index t 1 * 128 + 1 * (x 1).val = (i 1).val; rw [e1, h1]; omega

/-- The first matrix's only block is the matrix. -/
theorem blk_2 (c : Dev nD) (t : Fin cfg0.N) (x : S128x128.Idx) :
    (iblk0 V c 2 t : Vec Ideal S128x128 .f32) x = (V c main_v16 : S128x128.Idx → EReal) x := by
  obtain ⟨-, -, -, -, e0, e1, -⟩ := idx_facts t
  unfold iblk0
  rw [View.read_apply]
  show (V c main_v16 : S128x128.Idx → EReal) _ = _
  refine congrArg (V c main_v16 : S128x128.Idx → EReal) (funext fun a => Fin.ext ?_)
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The second matrix's only block is the matrix. -/
theorem blk_3 (c : Dev nD) (t : Fin cfg0.N) (x : S128x128.Idx) :
    (iblk0 V c 3 t : Vec Ideal S128x128 .f32) x = (V c main_v17 : S128x128.Idx → EReal) x := by
  obtain ⟨-, -, -, -, -, -, e0, e1, -⟩ := idx_facts t
  unfold iblk0
  rw [View.read_apply]
  show (V c main_v17 : S128x128.Idx → EReal) _ = _
  refine congrArg (V c main_v17 : S128x128.Idx → EReal) (funext fun a => Fin.ext ?_)
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- The bias row's only block is the row. -/
theorem blk_4 (c : Dev nD) (t : Fin cfg0.N) (x : S1x128.Idx) :
    (iblk0 V c 4 t : Vec Ideal S1x128 .f32) x = (V c main_v18 : S1x128.Idx → EReal) x := by
  obtain ⟨-, -, -, -, -, -, -, -, e0, e1, -⟩ := idx_facts t
  unfold iblk0
  rw [View.read_apply]
  show (V c main_v18 : S1x128.Idx → EReal) _ = _
  refine congrArg (V c main_v18 : S1x128.Idx → EReal) (funext fun a => Fin.ext ?_)
  match a with
  | ⟨0, _⟩ => show win0_4.index t 0 * 1 + 1 * (x 0).val = (x 0).val; rw [e0]; omega
  | ⟨1, _⟩ => show win0_4.index t 1 * 128 + 1 * (x 1).val = (x 1).val; rw [e1]; omega

/-- The layer of the arrays the kernel is launched on. -/
abbrev G (c : Dev nD) : S100000x128.Idx → EReal :=
  Cert.Sage.layer true (V c main_v15) (V c main_arg0) (V c main_v16) (V c main_v17) (fun q => (V c main_v18 : S1x128.Idx → EReal) (ix2 0 q))

/-- The body's stored value at entry `j` of the block of point `t` is the layer of the whole arrays at the entry `i` of the
    output array that `j` stands for: same column, row 2000·t + the row of `j`. -/
theorem point_eq (c : Dev nD) (t : Fin cfg0.N) (j : S2000x128.Idx) (i : S100000x128.Idx)
    (h0 : (i 0).val = 2000 * t.val + (j 0).val) (h1 : i 1 = j 1) :
    k0_pay1 (F := Ideal) (iblk0 V c 0 t) (iblk0 V c 1 t) (iblk0 V c 2 t) (iblk0 V c 3 t) (iblk0 V c 4 t) j = G V c i := by
  obtain ⟨p, q, rfl⟩ : ∃ (p : Fin 2000) (q : Fin 128), j = ix2 p q := ⟨j 0, j 1, eq_ix2 j⟩
  refine (Body.k0_apply (iblk0 V c 0 t) (iblk0 V c 1 t) (iblk0 V c 2 t) (iblk0 V c 3 t) (iblk0 V c 4 t) p q).trans ?_
  show Cert.Sage.act true _ = Cert.Sage.act true (Cert.Sage.lin 100000 _ _ _ _ _ (i 0) (i 1))
  rw [h1]
  refine congrArg (Cert.Sage.act true) (Cert.Sage.lin_congr 2000 100000 _ _ _ _ _ _ _ _ _ _ p (i 0) q ?_ ?_ ?_ ?_ ?_)
  · intro k; exact blk_0 V c t (ix2 p k) (ix2 (i 0) k) h0 rfl
  · intro k; exact blk_1 V c t (ix2 p k) (ix2 (i 0) k) h0 rfl
  · intro k; exact blk_2 V c t (ix2 k q)
  · intro k; exact blk_3 V c t (ix2 k q)
  · exact blk_4 V c t (ix2 0 q)

/-- What point `t` writes back is block `t` of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨-, -, -, -, -, -, -, -, -, -, e0, e1⟩ := idx_facts t
  funext j
  have hj0 : (j 0).val < 2000 := (j 0).isLt
  have hj1 : (j 1).val < 128 := (j 1).isLt
  refine point_eq V c t j (((cfg0.win 5).blk t).view.emb j) ?_ (Fin.ext ?_)
  · show win0_5.index t 0 * 2000 + 1 * (j 0).val = _; rw [e0]; omega
  · show win0_5.index t 1 * 128 + 1 * (j 1).val = _; rw [e1]; omega

/-- A row of the output array lies in point `t`'s block exactly when it is one of rows 2000·t … 2000·t + 1999. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v19).slice (win0_5.rect t)).set ↔ _
  rw [View.set_slice_whole, Rect.mem_set_unit]
  exact Iff.rfl

/-- Every entry of the output array is in the block of the point its row falls to. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, -, -, -, -, e0, e1⟩ := idx_facts t
  refine ⟨t, flush0_5 t, ?_⟩
  rw [mem_blk]
  intro a
  have ht : t.val = (i 0).val / 2000 := rfl
  match a with
  | ⟨0, _⟩ => show win0_5.index t 0 * 2000 ≤ (i 0).val ∧ (i 0).val < win0_5.index t 0 * 2000 + 2000; rw [e0, ht]; omega
  | ⟨1, _⟩ => show win0_5.index t 1 * 128 ≤ (i 1).val ∧ (i 1).val < win0_5.index t 1 * 128 + 128; rw [e1]; omega

/-- After the last point the output array is the layer of the arrays the kernel was launched on. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.RefLayers.lean ====
/-
  The reference's layers are the same layer function.

  The reference computes a layer as  (agg · Wlᵀ + b) + h · Wrᵀ,  each product a host contraction over the 128 features,
  the bias spread over the nodes, then (first two layers) the maximum with zero. Entry by entry that is the two sums
  and the bias entry added in another order than `Cert.Sage.lin` adds them, and addition of extended reals is
  commutative and associative: the stage is `Cert.Sage.layer` of the stages it reads. The read-out is one contraction
  plus a spread bias: `Cert.Sage.out`.
-/
import proofs.«143830_j79628693668166_2_alg».proof.Proof.Gen.ReferenceIdeal.Read
import proofs.«143830_j79628693668166_2_alg».proof.Proof.Layer

noncomputable section

namespace Cert.ReferenceIdeal.Layers

open Cert.ReferenceIdeal Cert.ReferenceIdeal.Gen Cert.ReferenceIdeal.Read Idealize.ShloMosaic Idealize.ShloMosaic.ValueIdx

/-- The first layer's stage: the layer (with the maximum) of the first neighbour sums, the input features, the two transposed weight matrices and the bias. -/
theorem layer1 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v22 (F := Ideal) x0 x1 x3 x4 x5 = Cert.Sage.layer true (val_main_v13 (F := Ideal) x0 x1) (x0) (val_main_v14 (F := Ideal) x3) (val_main_v19 (F := Ideal) x5) (fun q => x4 (ix1 q)) := by
  funext i
  rw [val_main_v22_apply, val_main_v21_apply, val_main_v18_apply, val_main_v15_apply, val_main_v20_apply, val_main_v17_apply, val_main_v16_apply, val_main_call0_v0_apply, val_main_call0_cst_apply]
  have el : ∀ k : Fin 128, lidx_main_v15 i k = ix2 (i 0) k := fun k => funext fun a => Fin.ext (by
    match a with
    | ⟨0, _⟩ => rfl
    | ⟨1, _⟩ => rfl)
  have er : ∀ k : Fin 128, ridx_main_v15 i k = ix2 k (i 1) := fun k => funext fun a => Fin.ext (by
    match a with
    | ⟨0, _⟩ => rfl
    | ⟨1, _⟩ => rfl)
  have el' : ∀ k : Fin 128, lidx_main_v20 i k = ix2 (i 0) k := fun k => funext fun a => Fin.ext (by
    match a with
    | ⟨0, _⟩ => rfl
    | ⟨1, _⟩ => rfl)
  have er' : ∀ k : Fin 128, ridx_main_v20 i k = ix2 k (i 1) := fun k => funext fun a => Fin.ext (by
    match a with
    | ⟨0, _⟩ => rfl
    | ⟨1, _⟩ => rfl)
  have eb : idx_main_v16 (idx_main_v17 i) = ix1 (i 1) := funext fun a => Fin.ext (by
    match a with
    | ⟨0, _⟩ => rfl)
  simp only [el, er, el', er', eb, Ideal.maximumf_def, Ideal.addf_def, Ideal.ofBits_def]
  unfold Cert.Sage.layer Cert.Sage.act Cert.Sage.lin
  rw [if_pos rfl, add_right_comm]
  rfl

/-- The second layer's stage, over the first layer's output. -/
theorem layer2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v41 (F := Ideal) x0 x1 x3 x4 x5 x6 x7 x8 = Cert.Sage.layer true (val_main_v32 (F := Ideal) x0 x1 x3 x4 x5) (val_main_v22 (F := Ideal) x0 x1 x3 x4 x5) (val_main_v33 (F := Ideal) x6) (val_main_v38 (F := Ideal) x8) (fun q => x7 (ix1 q)) := by
  funext i
  rw [val_main_v41_apply, val_main_v40_apply, val_main_v37_apply, val_main_v34_apply, val_main_v39_apply, val_main_v36_apply, val_main_v35_apply, val_main_call1_v0_apply, val_main_call1_cst_apply]
  have el : ∀ k : Fin 128, lidx_main_v34 i k = ix2 (i 0) k := fun k => funext fun a => Fin.ext (by
    match a with
    | ⟨0, _⟩ => rfl
    | ⟨1, _⟩ => rfl)
  have er : ∀ k : Fin 128, ridx_main_v34 i k = ix2 k (i 1) := fun k => funext fun a => Fin.ext (by
    match a with
    | ⟨0, _⟩ => rfl
    | ⟨1, _⟩ => rfl)
  have el' : ∀ k : Fin 128, lidx_main_v39 i k = ix2 (i 0) k := fun k => funext fun a => Fin.ext (by
    match a with
    | ⟨0, _⟩ => rfl
    | ⟨1, _⟩ => rfl)
  have er' : ∀ k : Fin 128, ridx_main_v39 i k = ix2 k (i 1) := fun k => funext fun a => Fin.ext (by
    match a with
    | ⟨0, _⟩ => rfl
    | ⟨1, _⟩ => rfl)
  have eb : idx_main_v35 (idx_main_v36 i) = ix1 (i 1) := funext fun a => Fin.ext (by
    match a with
    | ⟨0, _⟩ => rfl)
  simp only [el, er, el', er', eb, Ideal.maximumf_def, Ideal.addf_def, Ideal.ofBits_def]
  unfold Cert.Sage.layer Cert.Sage.act Cert.Sage.lin
  rw [if_pos rfl, add_right_comm]
  rfl

/-- The third layer's stage, over the second layer's output: no maximum. -/
theorem layer3 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) :
    val_main_v59 (F := Ideal) x0 x1 x3 x4 x5 x6 x7 x8 x9 x10 x11 = Cert.Sage.layer false (val_main_v51 (F := Ideal) x0 x1 x3 x4 x5 x6 x7 x8) (val_main_v41 (F := Ideal) x0 x1 x3 x4 x5 x6 x7 x8) (val_main_v52 (F := Ideal) x9) (val_main_v57 (F := Ideal) x11) (fun q => x10 (ix1 q)) := by
  funext i
  rw [val_main_v59_apply, val_main_v56_apply, val_main_v53_apply, val_main_v58_apply, val_main_v55_apply, val_main_v54_apply]
  have el : ∀ k : Fin 128, lidx_main_v53 i k = ix2 (i 0) k := fun k => funext fun a => Fin.ext (by
    match a with
    | ⟨0, _⟩ => rfl
    | ⟨1, _⟩ => rfl)
  have er : ∀ k : Fin 128, ridx_main_v53 i k = ix2 k (i 1) := fun k => funext fun a => Fin.ext (by
    match a with
    | ⟨0, _⟩ => rfl
    | ⟨1, _⟩ => rfl)
  have el' : ∀ k : Fin 128, lidx_main_v58 i k = ix2 (i 0) k := fun k => funext fun a => Fin.ext (by
    match a with
    | ⟨0, _⟩ => rfl
    | ⟨1, _⟩ => rfl)
  have er' : ∀ k : Fin 128, ridx_main_v58 i k = ix2 k (i 1) := fun k => funext fun a => Fin.ext (by
    match a with
    | ⟨0, _⟩ => rfl
    | ⟨1, _⟩ => rfl)
  have eb : idx_main_v54 (idx_main_v55 i) = ix1 (i 1) := funext fun a => Fin.ext (by
    match a with
    | ⟨0, _⟩ => rfl)
  simp only [el, er, el', er', eb, Ideal.maximumf_def, Ideal.addf_def, Ideal.ofBits_def]
  unfold Cert.Sage.layer Cert.Sage.act Cert.Sage.lin
  rw [if_neg Bool.false_ne_true, add_right_comm]
  rfl

/-- The last stage: the read-out of the per-graph sums, the transposed class matrix and the class bias. -/
theorem readout (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S10x128, .f32⟩ : BufTy).Contents (Elt Ideal)) (x13 : (⟨S10, .f32⟩ : BufTy).Contents (Elt Ideal)) :
    val_main_v67 (F := Ideal) x0 x1 x2 x3 x4 x5 x6 x7 x8 x9 x10 x11 x12 x13
      = Cert.Sage.out (val_main_v62 (F := Ideal) x0 x1 x2 x3 x4 x5 x6 x7 x8 x9 x10 x11) (val_main_v63 (F := Ideal) x12) (fun q => x13 (ix1 q)) := by
  funext i
  rw [val_main_v67_apply, val_main_v64_apply, val_main_v66_apply, val_main_v65_apply]
  have el : ∀ k : Fin 128, lidx_main_v64 i k = ix2 (i 0) k := fun k => funext fun a => Fin.ext (by
    match a with
    | ⟨0, _⟩ => rfl
    | ⟨1, _⟩ => rfl)
  have er : ∀ k : Fin 128, ridx_main_v64 i k = ix2 k (i 1) := fun k => funext fun a => Fin.ext (by
    match a with
    | ⟨0, _⟩ => rfl
    | ⟨1, _⟩ => rfl)
  have eb : idx_main_v65 (idx_main_v66 i) = ix1 (i 1) := funext fun a => Fin.ext (by
    match a with
    | ⟨0, _⟩ => rfl)
  simp only [el, er, eb, Ideal.addf_def]
  rfl

end Cert.ReferenceIdeal.Layers

end
-- ==== Proof.Fold0.lean ====
/-
  The first host stretch and the first layer's kernel, read against the reference's stages.

  From the launch memory the first stretch computes the two rows of the edge list (sources, destinations), the
  neighbour sums of the input features (a gather of the source rows — through a narrower float format, which changes
  no extended real — scattered additively onto the destination rows), the two transposed weight matrices and the bias
  as a 1 × 128 row. Each is, as a term, what the reference computes for the same purpose. The first kernel then
  leaves the layer function of those arrays in its output, which is the reference's first-layer stage. The buffers that
  later stretches read again (the edge rows, the later layers' weights and biases, the graph assignment, the read-out
  weights) are written by nothing here and keep their values.
-/
import proofs.«143830_j79628693668166_2_alg».proof.Proof.Gen.KernelIdeal.Frame
import proofs.«143830_j79628693668166_2_alg».proof.Proof.Region0
import proofs.«143830_j79628693668166_2_alg».proof.Proof.RefLayers
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v1 val_main_v3 val_main_v13 val_main_v14 val_main_v19 val_main_v22 val_main_v32 val_main_v33 val_main_v38 val_main_v41 val_main_v51 val_main_v52 val_main_v57 val_main_v59 val_main_v62 val_main_v63 val_main_v67)

variable (m : (ℓ : Loc nD τ sig) → Buf (Elt Ideal) ℓ) (ρ : Dev nD → PrngReg)

/-- The argument arrays as launched, on core `c`. -/
abbrev a0 (c : Dev nD) : Buf (Elt Ideal) ((c : Thread nD τ).loc main_arg0) := m ((c : Thread nD τ).loc main_arg0)
abbrev a1 (c : Dev nD) : Buf (Elt Ideal) ((c : Thread nD τ).loc main_arg1) := m ((c : Thread nD τ).loc main_arg1)
abbrev a2 (c : Dev nD) : Buf (Elt Ideal) ((c : Thread nD τ).loc main_arg2) := m ((c : Thread nD τ).loc main_arg2)
abbrev a3 (c : Dev nD) : Buf (Elt Ideal) ((c : Thread nD τ).loc main_arg3) := m ((c : Thread nD τ).loc main_arg3)
abbrev a4 (c : Dev nD) : Buf (Elt Ideal) ((c : Thread nD τ).loc main_arg4) := m ((c : Thread nD τ).loc main_arg4)
abbrev a5 (c : Dev nD) : Buf (Elt Ideal) ((c : Thread nD τ).loc main_arg5) := m ((c : Thread nD τ).loc main_arg5)
abbrev a6 (c : Dev nD) : Buf (Elt Ideal) ((c : Thread nD τ).loc main_arg6) := m ((c : Thread nD τ).loc main_arg6)
abbrev a7 (c : Dev nD) : Buf (Elt Ideal) ((c : Thread nD τ).loc main_arg7) := m ((c : Thread nD τ).loc main_arg7)
abbrev a8 (c : Dev nD) : Buf (Elt Ideal) ((c : Thread nD τ).loc main_arg8) := m ((c : Thread nD τ).loc main_arg8)
abbrev a9 (c : Dev nD) : Buf (Elt Ideal) ((c : Thread nD τ).loc main_arg9) := m ((c : Thread nD τ).loc main_arg9)
abbrev a10 (c : Dev nD) : Buf (Elt Ideal) ((c : Thread nD τ).loc main_arg10) := m ((c : Thread nD τ).loc main_arg10)
abbrev a11 (c : Dev nD) : Buf (Elt Ideal) ((c : Thread nD τ).loc main_arg11) := m ((c : Thread nD τ).loc main_arg11)
abbrev a12 (c : Dev nD) : Buf (Elt Ideal) ((c : Thread nD τ).loc main_arg12) := m ((c : Thread nD τ).loc main_arg12)
abbrev a13 (c : Dev nD) : Buf (Elt Ideal) ((c : Thread nD τ).loc main_arg13) := m ((c : Thread nD τ).loc main_arg13)

/-- A vector reshaped to one row, read at column `q`, is its entry `q`. -/
theorem bias128 (x : S128.Idx → EReal) :
    (fun q : Fin 128 => (shapeCast S1x128 x shapeCasts_S128_S1x128 : S1x128.Idx → EReal) (ix2 0 q)) = fun q => x (ix1 q) :=
  funext fun q => (shapeCast_addUnit_apply ![128] x shapeCasts_S128_S1x128 (ix2 0 q)).trans
    (congrArg x (funext fun a => by match a with | ⟨0, _⟩ => rfl))
theorem bias10 (x : S10.Idx → EReal) :
    (fun q : Fin 10 => (shapeCast S1x10 x shapeCasts_S10_S1x10 : S1x10.Idx → EReal) (ix2 0 q)) = fun q => x (ix1 q) :=
  funext fun q => (shapeCast_addUnit_apply ![10] x shapeCasts_S10_S1x10 (ix2 0 q)).trans
    (congrArg x (funext fun a => by match a with | ⟨0, _⟩ => rfl))

/-! ## After the first stretch -/

/-- The first neighbour sums are the reference's. -/
theorem v1_v15 (c : Dev nD) : V1 m ρ c main_v15 = val_main_v13 (F := Ideal) (a0 m c) (a1 m c) := by
  show StableHlo.after hostOps0 (W0 m ρ c) (Proc.devRef .tc main_v15) = _
  dsimp only [hostOps0]
  after_results_simp <;> rfl

/-- The input features are untouched. -/
theorem v1_arg0 (c : Dev nD) : V1 m ρ c main_arg0 = (a0 m c) := by
  show StableHlo.after hostOps0 (W0 m ρ c) (Proc.devRef .tc main_arg0) = _
  dsimp only [hostOps0]
  after_results_simp <;> rfl

/-- The first weight matrix, transposed. -/
theorem v1_v16 (c : Dev nD) : V1 m ρ c main_v16 = val_main_v14 (F := Ideal) (a3 m c) := by
  show StableHlo.after hostOps0 (W0 m ρ c) (Proc.devRef .tc main_v16) = _
  dsimp only [hostOps0]
  after_results_simp <;> rfl

/-- The second weight matrix, transposed. -/
theorem v1_v17 (c : Dev nD) : V1 m ρ c main_v17 = val_main_v19 (F := Ideal) (a5 m c) := by
  show StableHlo.after hostOps0 (W0 m ρ c) (Proc.devRef .tc main_v17) = _
  dsimp only [hostOps0]
  after_results_simp <;> rfl

/-- The bias as a row. -/
theorem v1_v18 (c : Dev nD) : V1 m ρ c main_v18 = shapeCast S1x128 (a4 m c) shapeCasts_S128_S1x128 := by
  show StableHlo.after hostOps0 (W0 m ρ c) (Proc.devRef .tc main_v18) = _
  dsimp only [hostOps0]
  after_results_simp <;> rfl

/-- The source and destination rows of the edge list, and the arguments later stretches read, after the first stretch. -/
theorem w1_v1 (c : Dev nD) : W1 m ρ c (Proc.devRef .tc main_v1) = val_main_v1 (F := Ideal) (a1 m c) := by
  show StableHlo.after hostOps0 (W0 m ρ c) (Proc.devRef .tc main_v1) = _
  dsimp only [hostOps0]
  after_results_simp <;> rfl
theorem w1_v3 (c : Dev nD) : W1 m ρ c (Proc.devRef .tc main_v3) = val_main_v3 (F := Ideal) (a1 m c) := by
  show StableHlo.after hostOps0 (W0 m ρ c) (Proc.devRef .tc main_v3) = _
  dsimp only [hostOps0]
  after_results_simp <;> rfl
theorem w1_arg2 (c : Dev nD) : W1 m ρ c (Proc.devRef .tc main_arg2) = (a2 m c) := by
  show StableHlo.after hostOps0 (W0 m ρ c) (Proc.devRef .tc main_arg2) = _
  dsimp only [hostOps0]
  after_results_simp <;> rfl
theorem w1_arg6 (c : Dev nD) : W1 m ρ c (Proc.devRef .tc main_arg6) = (a6 m c) := by
  show StableHlo.after hostOps0 (W0 m ρ c) (Proc.devRef .tc main_arg6) = _
  dsimp only [hostOps0]
  after_results_simp <;> rfl
theorem w1_arg7 (c : Dev nD) : W1 m ρ c (Proc.devRef .tc main_arg7) = (a7 m c) := by
  show StableHlo.after hostOps0 (W0 m ρ c) (Proc.devRef .tc main_arg7) = _
  dsimp only [hostOps0]
  after_results_simp <;> rfl
theorem w1_arg8 (c : Dev nD) : W1 m ρ c (Proc.devRef .tc main_arg8) = (a8 m c) := by
  show StableHlo.after hostOps0 (W0 m ρ c) (Proc.devRef .tc main_arg8) = _
  dsimp only [hostOps0]
  after_results_simp <;> rfl
theorem w1_arg9 (c : Dev nD) : W1 m ρ c (Proc.devRef .tc main_arg9) = (a9 m c) := by
  show StableHlo.after hostOps0 (W0 m ρ c) (Proc.devRef .tc main_arg9) = _
  dsimp only [hostOps0]
  after_results_simp <;> rfl
theorem w1_arg10 (c : Dev nD) : W1 m ρ c (Proc.devRef .tc main_arg10) = (a10 m c) := by
  show StableHlo.after hostOps0 (W0 m ρ c) (Proc.devRef .tc main_arg10) = _
  dsimp only [hostOps0]
  after_results_simp <;> rfl
theorem w1_arg11 (c : Dev nD) : W1 m ρ c (Proc.devRef .tc main_arg11) = (a11 m c) := by
  show StableHlo.after hostOps0 (W0 m ρ c) (Proc.devRef .tc main_arg11) = _
  dsimp only [hostOps0]
  after_results_simp <;> rfl
theorem w1_arg12 (c : Dev nD) : W1 m ρ c (Proc.devRef .tc main_arg12) = (a12 m c) := by
  show StableHlo.after hostOps0 (W0 m ρ c) (Proc.devRef .tc main_arg12) = _
  dsimp only [hostOps0]
  after_results_simp <;> rfl
theorem w1_arg13 (c : Dev nD) : W1 m ρ c (Proc.devRef .tc main_arg13) = (a13 m c) := by
  show StableHlo.after hostOps0 (W0 m ρ c) (Proc.devRef .tc main_arg13) = _
  dsimp only [hostOps0]
  after_results_simp <;> rfl

/-! ## After the first kernel -/

/-- The first kernel's output is the reference's first-layer stage. -/
theorem w2_v19 (c : Dev nD) : W2 m ρ c (Proc.devRef .tc main_v19) = val_main_v22 (F := Ideal) (a0 m c) (a1 m c) (a3 m c) (a4 m c) (a5 m c) := by
  refine (W2_arr m ρ c 5).trans ?_
  rw [Region0.final (V1 m ρ) c]
  dsimp only [Region0.G]
  rw [v1_v15 m ρ c, v1_arg0 m ρ c, v1_v16 m ρ c, v1_v17 m ρ c, v1_v18 m ρ c, bias128, Cert.ReferenceIdeal.Layers.layer1]

/-- The kernel writes none of these. -/
theorem w2_v1 (c : Dev nD) : W2 m ρ c (Proc.devRef .tc main_v1) = val_main_v1 (F := Ideal) (a1 m c) :=
  (W2_of_ne m ρ c main_v1 (by decide)).trans (w1_v1 m ρ c)
theorem w2_v3 (c : Dev nD) : W2 m ρ c (Proc.devRef .tc main_v3) = val_main_v3 (F := Ideal) (a1 m c) :=
  (W2_of_ne m ρ c main_v3 (by decide)).trans (w1_v3 m ρ c)
theorem w2_arg2 (c : Dev nD) : W2 m ρ c (Proc.devRef .tc main_arg2) = (a2 m c) :=
  (W2_of_ne m ρ c main_arg2 (by decide)).trans (w1_arg2 m ρ c)
theorem w2_arg6 (c : Dev nD) : W2 m ρ c (Proc.devRef .tc main_arg6) = (a6 m c) :=
  (W2_of_ne m ρ c main_arg6 (by decide)).trans (w1_arg6 m ρ c)
theorem w2_arg7 (c : Dev nD) : W2 m ρ c (Proc.devRef .tc main_arg7) = (a7 m c) :=
  (W2_of_ne m ρ c main_arg7 (by decide)).trans (w1_arg7 m ρ c)
theorem w2_arg8 (c : Dev nD) : W2 m ρ c (Proc.devRef .tc main_arg8) = (a8 m c) :=
  (W2_of_ne m ρ c main_arg8 (by decide)).trans (w1_arg8 m ρ c)
theorem w2_arg9 (c : Dev nD) : W2 m ρ c (Proc.devRef .tc main_arg9) = (a9 m c) :=
  (W2_of_ne m ρ c main_arg9 (by decide)).trans (w1_arg9 m ρ c)
theorem w2_arg10 (c : Dev nD) : W2 m ρ c (Proc.devRef .tc main_arg10) = (a10 m c) :=
  (W2_of_ne m ρ c main_arg10 (by decide)).trans (w1_arg10 m ρ c)
theorem w2_arg11 (c : Dev nD) : W2 m ρ c (Proc.devRef .tc main_arg11) = (a11 m c) :=
  (W2_of_ne m ρ c main_arg11 (by decide)).trans (w1_arg11 m ρ c)
theorem w2_arg12 (c : Dev nD) : W2 m ρ c (Proc.devRef .tc main_arg12) = (a12 m c) :=
  (W2_of_ne m ρ c main_arg12 (by decide)).trans (w1_arg12 m ρ c)
theorem w2_arg13 (c : Dev nD) : W2 m ρ c (Proc.devRef .tc main_arg13) = (a13 m c) :=
  (W2_of_ne m ρ c main_arg13 (by decide)).trans (w1_arg13 m ρ c)

end Cert.KernelIdeal.Fold

end
-- ==== Proof.Region1.lean ====
/-
  Layer 2's kernel, read as one function of the arrays it is launched on.

  The grid has 50 points. At point `t` the kernel is handed rows 2000·t … 2000·t + 1999 of the neighbour sums and of
  the node features, both 128 × 128 matrices and the bias row whole, and writes rows 2000·t … 2000·t + 1999 of the
  output. An entry (r, q) of the output therefore depends on row r of the two row-blocked arrays, column q of the two
  matrices and entry q of the bias: it is `Cert.Sage.layer` of the five arrays at (r, q), whichever point wrote it.
  The 50 row blocks tile the 100000 rows (row r belongs to point r / 2000), so after the last point the whole output
  array is `Cert.Sage.layer` of the arrays as the kernel found them.
-/
import proofs.«143830_j79628693668166_2_alg».proof.Proof.Gen.KernelIdeal.Frame
import proofs.«143830_j79628693668166_2_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Which block each window shows at point `t`: the two row-blocked inputs and the output show block row `t`, the
    matrices and the bias their only block. Decided over the 50 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The neighbour-sum block at point `t` is rows 2000·t … of its array. -/
theorem blk_0 (c : Dev nD) (t : Fin cfg1.N) (x : S2000x128.Idx) (i : S100000x128.Idx)
    (h0 : (i 0).val = 2000 * t.val + (x 0).val) (h1 : (i 1).val = (x 1).val) :
    (iblk1 V c 0 t : Vec Ideal S2000x128 .f32) x = (V c main_v31 : S100000x128.Idx → EReal) i := by
  obtain ⟨e0, e1, -⟩ := idx_facts t
  unfold iblk1
  rw [View.read_apply]
  show (V c main_v31 : S100000x128.Idx → EReal) _ = _
  refine congrArg (V c main_v31 : S100000x128.Idx → EReal) (funext fun a => Fin.ext ?_)
  match a with
  | ⟨0, _⟩ => show win1_0.index t 0 * 2000 + 1 * (x 0).val = (i 0).val; rw [e0, h0]; omega
  | ⟨1, _⟩ => show win1_0.index t 1 * 128 + 1 * (x 1).val = (i 1).val; rw [e1, h1]; omega

/-- The node-feature block at point `t` is rows 2000·t … of its array. -/
theorem blk_1 (c : Dev nD) (t : Fin cfg1.N) (x : S2000x128.Idx) (i : S100000x128.Idx)
    (h0 : (i 0).val = 2000 * t.val + (x 0).val) (h1 : (i 1).val = (x 1).val) :
    (iblk1 V c 1 t : Vec Ideal S2000x128 .f32) x = (V c main_v19 : S100000x128.Idx → EReal) i := by
  obtain ⟨-, -, e0, e1, -⟩ := idx_facts t
  unfold iblk1
  rw [View.read_apply]
  show (V c main_v19 : S100000x128.Idx → EReal) _ = _
  refine congrArg (V c main_v19 : S100000x128.Idx → EReal) (funext fun a => Fin.ext ?_)
  match a with
  | ⟨0, _⟩ => show win1_1.index t 0 * 2000 + 1 * (x 0).val = (i 0).val; rw [e0, h0]; omega
  | ⟨1, _⟩ => show win1_1.index t 1 * 128 + 1 * (x 1).val = (i 1).val; rw [e1, h1]; omega

/-- The first matrix's only block is the matrix. -/
theorem blk_2 (c : Dev nD) (t : Fin cfg1.N) (x : S128x128.Idx) :
    (iblk1 V c 2 t : Vec Ideal S128x128 .f32) x = (V c main_v32 : S128x128.Idx → EReal) x := by
  obtain ⟨-, -, -, -, e0, e1, -⟩ := idx_facts t
  unfold iblk1
  rw [View.read_apply]
  show (V c main_v32 : S128x128.Idx → EReal) _ = _
  refine congrArg (V c main_v32 : S128x128.Idx → EReal) (funext fun a => Fin.ext ?_)
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- The second matrix's only block is the matrix. -/
theorem blk_3 (c : Dev nD) (t : Fin cfg1.N) (x : S128x128.Idx) :
    (iblk1 V c 3 t : Vec Ideal S128x128 .f32) x = (V c main_v33 : S128x128.Idx → EReal) x := by
  obtain ⟨-, -, -, -, -, -, e0, e1, -⟩ := idx_facts t
  unfold iblk1
  rw [View.read_apply]
  show (V c main_v33 : S128x128.Idx → EReal) _ = _
  refine congrArg (V c main_v33 : S128x128.Idx → EReal) (funext fun a => Fin.ext ?_)
  match a with
  | ⟨0, _⟩ => show win1_3.index t 0 * 128 + 1 * (x 0).val = (x 0).val; rw [e0]; omega
  | ⟨1, _⟩ => show win1_3.index t 1 * 128 + 1 * (x 1).val = (x 1).val; rw [e1]; omega

/-- The bias row's only block is the row. -/
theorem blk_4 (c : Dev nD) (t : Fin cfg1.N) (x : S1x128.Idx) :
    (iblk1 V c 4 t : Vec Ideal S1x128 .f32) x = (V c main_v34 : S1x128.Idx → EReal) x := by
  obtain ⟨-, -, -, -, -, -, -, -, e0, e1, -⟩ := idx_facts t
  unfold iblk1
  rw [View.read_apply]
  show (V c main_v34 : S1x128.Idx → EReal) _ = _
  refine congrArg (V c main_v34 : S1x128.Idx → EReal) (funext fun a => Fin.ext ?_)
  match a with
  | ⟨0, _⟩ => show win1_4.index t 0 * 1 + 1 * (x 0).val = (x 0).val; rw [e0]; omega
  | ⟨1, _⟩ => show win1_4.index t 1 * 128 + 1 * (x 1).val = (x 1).val; rw [e1]; omega

/-- The layer of the arrays the kernel is launched on. -/
abbrev G (c : Dev nD) : S100000x128.Idx → EReal :=
  Cert.Sage.layer true (V c main_v31) (V c main_v19) (V c main_v32) (V c main_v33) (fun q => (V c main_v34 : S1x128.Idx → EReal) (ix2 0 q))

/-- The body's stored value at entry `j` of the block of point `t` is the layer of the whole arrays at the entry `i` of the
    output array that `j` stands for: same column, row 2000·t + the row of `j`. -/
theorem point_eq (c : Dev nD) (t : Fin cfg1.N) (j : S2000x128.Idx) (i : S100000x128.Idx)
    (h0 : (i 0).val = 2000 * t.val + (j 0).val) (h1 : i 1 = j 1) :
    k1_pay1 (F := Ideal) (iblk1 V c 0 t) (iblk1 V c 1 t) (iblk1 V c 2 t) (iblk1 V c 3 t) (iblk1 V c 4 t) j = G V c i := by
  obtain ⟨p, q, rfl⟩ : ∃ (p : Fin 2000) (q : Fin 128), j = ix2 p q := ⟨j 0, j 1, eq_ix2 j⟩
  refine (Body.k1_apply (iblk1 V c 0 t) (iblk1 V c 1 t) (iblk1 V c 2 t) (iblk1 V c 3 t) (iblk1 V c 4 t) p q).trans ?_
  show Cert.Sage.act true _ = Cert.Sage.act true (Cert.Sage.lin 100000 _ _ _ _ _ (i 0) (i 1))
  rw [h1]
  refine congrArg (Cert.Sage.act true) (Cert.Sage.lin_congr 2000 100000 _ _ _ _ _ _ _ _ _ _ p (i 0) q ?_ ?_ ?_ ?_ ?_)
  · intro k; exact blk_0 V c t (ix2 p k) (ix2 (i 0) k) h0 rfl
  · intro k; exact blk_1 V c t (ix2 p k) (ix2 (i 0) k) h0 rfl
  · intro k; exact blk_2 V c t (ix2 k q)
  · intro k; exact blk_3 V c t (ix2 k q)
  · exact blk_4 V c t (ix2 0 q)

/-- What point `t` writes back is block `t` of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨-, -, -, -, -, -, -, -, -, -, e0, e1⟩ := idx_facts t
  funext j
  have hj0 : (j 0).val < 2000 := (j 0).isLt
  have hj1 : (j 1).val < 128 := (j 1).isLt
  refine point_eq V c t j (((cfg1.win 5).blk t).view.emb j) ?_ (Fin.ext ?_)
  · show win1_5.index t 0 * 2000 + 1 * (j 0).val = _; rw [e0]; omega
  · show win1_5.index t 1 * 128 + 1 * (j 1).val = _; rw [e1]; omega

/-- A row of the output array lies in point `t`'s block exactly when it is one of rows 2000·t … 2000·t + 1999. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v35).slice (win1_5.rect t)).set ↔ _
  rw [View.set_slice_whole, Rect.mem_set_unit]
  exact Iff.rfl

/-- Every entry of the output array is in the block of the point its row falls to. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  obtain ⟨-, -, -, -, -, -, -, -, -, -, e0, e1⟩ := idx_facts t
  refine ⟨t, flush1_5 t, ?_⟩
  rw [mem_blk]
  intro a
  have ht : t.val = (i 0).val / 2000 := rfl
  match a with
  | ⟨0, _⟩ => show win1_5.index t 0 * 2000 ≤ (i 0).val ∧ (i 0).val < win1_5.index t 0 * 2000 + 2000; rw [e0, ht]; omega
  | ⟨1, _⟩ => show win1_5.index t 1 * 128 ≤ (i 1).val ∧ (i 1).val < win1_5.index t 1 * 128 + 128; rw [e1]; omega

/-- After the last point the output array is the layer of the arrays the kernel was launched on. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.Fold1.lean ====
/-
  The second host stretch and the second layer's kernel, read against the reference's stages.

  The second stretch gathers the source rows of the first layer's output, scatters them additively onto the
  destination rows, transposes the second layer's two weight matrices and lays its bias out as a row: the
  reference's terms for the same. The second kernel leaves the layer function of those arrays, the reference's
  second-layer stage. The edge rows and the later arguments are carried through unchanged.
-/
import proofs.«143830_j79628693668166_2_alg».proof.Proof.Fold0
import proofs.«143830_j79628693668166_2_alg».proof.Proof.Region1
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v1 val_main_v3 val_main_v13 val_main_v14 val_main_v19 val_main_v22 val_main_v32 val_main_v33 val_main_v38 val_main_v41 val_main_v51 val_main_v52 val_main_v57 val_main_v59 val_main_v62 val_main_v63 val_main_v67)

variable (m : (ℓ : Loc nD τ sig) → Buf (Elt Ideal) ℓ) (ρ : Dev nD → PrngReg)

/-! ## After the second stretch -/

/-- The second neighbour sums are the reference's. -/
theorem v3_v31 (c : Dev nD) : V3 m ρ c main_v31 = val_main_v32 (F := Ideal) (a0 m c) (a1 m c) (a3 m c) (a4 m c) (a5 m c) := by
  show StableHlo.after hostOps1 (W2 m ρ c) (Proc.devRef .tc main_v31) = _
  dsimp only [hostOps1]
  after_results_simp
  rw [w2_v19 m ρ c, w2_v1 m ρ c, w2_v3 m ρ c] <;> rfl

/-- The first layer's output is not written by the stretch. -/
theorem v3_v19 (c : Dev nD) : V3 m ρ c main_v19 = val_main_v22 (F := Ideal) (a0 m c) (a1 m c) (a3 m c) (a4 m c) (a5 m c) := by
  show StableHlo.after hostOps1 (W2 m ρ c) (Proc.devRef .tc main_v19) = _
  dsimp only [hostOps1]
  after_results_simp
  exact w2_v19 m ρ c

/-- The second layer's first weight matrix, transposed. -/
theorem v3_v32 (c : Dev nD) : V3 m ρ c main_v32 = val_main_v33 (F := Ideal) (a6 m c) := by
  show StableHlo.after hostOps1 (W2 m ρ c) (Proc.devRef .tc main_v32) = _
  dsimp only [hostOps1]
  after_results_simp
  rw [w2_arg6 m ρ c] <;> rfl

/-- The second layer's second weight matrix, transposed. -/
theorem v3_v33 (c : Dev nD) : V3 m ρ c main_v33 = val_main_v38 (F := Ideal) (a8 m c) := by
  show StableHlo.after hostOps1 (W2 m ρ c) (Proc.devRef .tc main_v33) = _
  dsimp only [hostOps1]
  after_results_simp
  rw [w2_arg8 m ρ c] <;> rfl

/-- The second layer's bias as a row. -/
theorem v3_v34 (c : Dev nD) : V3 m ρ c main_v34 = shapeCast S1x128 (a7 m c) shapeCasts_S128_S1x128 := by
  show StableHlo.after hostOps1 (W2 m ρ c) (Proc.devRef .tc main_v34) = _
  dsimp only [hostOps1]
  after_results_simp
  rw [w2_arg7 m ρ c] <;> rfl

/-- Carried through the stretch. -/
theorem w3_v1 (c : Dev nD) : W3 m ρ c (Proc.devRef .tc main_v1) = val_main_v1 (F := Ideal) (a1 m c) := by
  show StableHlo.after hostOps1 (W2 m ρ c) (Proc.devRef .tc main_v1) = _
  dsimp only [hostOps1]
  after_results_simp
  exact w2_v1 m ρ c
theorem w3_v3 (c : Dev nD) : W3 m ρ c (Proc.devRef .tc main_v3) = val_main_v3 (F := Ideal) (a1 m c) := by
  show StableHlo.after hostOps1 (W2 m ρ c) (Proc.devRef .tc main_v3) = _
  dsimp only [hostOps1]
  after_results_simp
  exact w2_v3 m ρ c
theorem w3_arg2 (c : Dev nD) : W3 m ρ c (Proc.devRef .tc main_arg2) = (a2 m c) := by
  show StableHlo.after hostOps1 (W2 m ρ c) (Proc.devRef .tc main_arg2) = _
  dsimp only [hostOps1]
  after_results_simp
  exact w2_arg2 m ρ c
theorem w3_arg9 (c : Dev nD) : W3 m ρ c (Proc.devRef .tc main_arg9) = (a9 m c) := by
  show StableHlo.after hostOps1 (W2 m ρ c) (Proc.devRef .tc main_arg9) = _
  dsimp only [hostOps1]
  after_results_simp
  exact w2_arg9 m ρ c
theorem w3_arg10 (c : Dev nD) : W3 m ρ c (Proc.devRef .tc main_arg10) = (a10 m c) := by
  show StableHlo.after hostOps1 (W2 m ρ c) (Proc.devRef .tc main_arg10) = _
  dsimp only [hostOps1]
  after_results_simp
  exact w2_arg10 m ρ c
theorem w3_arg11 (c : Dev nD) : W3 m ρ c (Proc.devRef .tc main_arg11) = (a11 m c) := by
  show StableHlo.after hostOps1 (W2 m ρ c) (Proc.devRef .tc main_arg11) = _
  dsimp only [hostOps1]
  after_results_simp
  exact w2_arg11 m ρ c
theorem w3_arg12 (c : Dev nD) : W3 m ρ c (Proc.devRef .tc main_arg12) = (a12 m c) := by
  show StableHlo.after hostOps1 (W2 m ρ c) (Proc.devRef .tc main_arg12) = _
  dsimp only [hostOps1]
  after_results_simp
  exact w2_arg12 m ρ c
theorem w3_arg13 (c : Dev nD) : W3 m ρ c (Proc.devRef .tc main_arg13) = (a13 m c) := by
  show StableHlo.after hostOps1 (W2 m ρ c) (Proc.devRef .tc main_arg13) = _
  dsimp only [hostOps1]
  after_results_simp
  exact w2_arg13 m ρ c

/-! ## After the second kernel -/

/-- The second kernel's output is the reference's second-layer stage. -/
theorem w4_v35 (c : Dev nD) : W4 m ρ c (Proc.devRef .tc main_v35) = val_main_v41 (F := Ideal) (a0 m c) (a1 m c) (a3 m c) (a4 m c) (a5 m c) (a6 m c) (a7 m c) (a8 m c) := by
  refine (W4_arr m ρ c 5).trans ?_
  rw [Region1.final (V3 m ρ) c]
  dsimp only [Region1.G]
  rw [v3_v31 m ρ c, v3_v19 m ρ c, v3_v32 m ρ c, v3_v33 m ρ c, v3_v34 m ρ c, bias128, Cert.ReferenceIdeal.Layers.layer2]

/-- The kernel writes none of these. -/
theorem w4_v1 (c : Dev nD) : W4 m ρ c (Proc.devRef .tc main_v1) = val_main_v1 (F := Ideal) (a1 m c) :=
  (W4_of_ne m ρ c main_v1 (by decide)).trans (w3_v1 m ρ c)
theorem w4_v3 (c : Dev nD) : W4 m ρ c (Proc.devRef .tc main_v3) = val_main_v3 (F := Ideal) (a1 m c) :=
  (W4_of_ne m ρ c main_v3 (by decide)).trans (w3_v3 m ρ c)
theorem w4_arg2 (c : Dev nD) : W4 m ρ c (Proc.devRef .tc main_arg2) = (a2 m c) :=
  (W4_of_ne m ρ c main_arg2 (by decide)).trans (w3_arg2 m ρ c)
theorem w4_arg9 (c : Dev nD) : W4 m ρ c (Proc.devRef .tc main_arg9) = (a9 m c) :=
  (W4_of_ne m ρ c main_arg9 (by decide)).trans (w3_arg9 m ρ c)
theorem w4_arg10 (c : Dev nD) : W4 m ρ c (Proc.devRef .tc main_arg10) = (a10 m c) :=
  (W4_of_ne m ρ c main_arg10 (by decide)).trans (w3_arg10 m ρ c)
theorem w4_arg11 (c : Dev nD) : W4 m ρ c (Proc.devRef .tc main_arg11) = (a11 m c) :=
  (W4_of_ne m ρ c main_arg11 (by decide)).trans (w3_arg11 m ρ c)
theorem w4_arg12 (c : Dev nD) : W4 m ρ c (Proc.devRef .tc main_arg12) = (a12 m c) :=
  (W4_of_ne m ρ c main_arg12 (by decide)).trans (w3_arg12 m ρ c)
theorem w4_arg13 (c : Dev nD) : W4 m ρ c (Proc.devRef .tc main_arg13) = (a13 m c) :=
  (W4_of_ne m ρ c main_arg13 (by decide)).trans (w3_arg13 m ρ c)

end Cert.KernelIdeal.Fold

end
-- ==== Proof.Region2.lean ====
/-
  Layer 3's kernel, read as one function of the arrays it is launched on.

  The grid has 50 points. At point `t` the kernel is handed rows 2000·t … 2000·t + 1999 of the neighbour sums and of
  the node features, both 128 × 128 matrices and the bias row whole, and writes rows 2000·t … 2000·t + 1999 of the
  output. An entry (r, q) of the output therefore depends on row r of the two row-blocked arrays, column q of the two
  matrices and entry q of the bias: it is `Cert.Sage.layer` of the five arrays at (r, q), whichever point wrote it.
  The 50 row blocks tile the 100000 rows (row r belongs to point r / 2000), so after the last point the whole output
  array is `Cert.Sage.layer` of the arrays as the kernel found them.
-/
import proofs.«143830_j79628693668166_2_alg».proof.Proof.Gen.KernelIdeal.Frame
import proofs.«143830_j79628693668166_2_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Which block each window shows at point `t`: the two row-blocked inputs and the output show block row `t`, the
    matrices and the bias their only block. Decided over the 50 points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The neighbour-sum block at point `t` is rows 2000·t … of its array. -/
theorem blk_0 (c : Dev nD) (t : Fin cfg2.N) (x : S2000x128.Idx) (i : S100000x128.Idx)
    (h0 : (i 0).val = 2000 * t.val + (x 0).val) (h1 : (i 1).val = (x 1).val) :
    (iblk2 V c 0 t : Vec Ideal S2000x128 .f32) x = (V c main_v47 : S100000x128.Idx → EReal) i := by
  obtain ⟨e0, e1, -⟩ := idx_facts t
  unfold iblk2
  rw [View.read_apply]
  show (V c main_v47 : S100000x128.Idx → EReal) _ = _
  refine congrArg (V c main_v47 : S100000x128.Idx → EReal) (funext fun a => Fin.ext ?_)
  match a with
  | ⟨0, _⟩ => show win2_0.index t 0 * 2000 + 1 * (x 0).val = (i 0).val; rw [e0, h0]; omega
  | ⟨1, _⟩ => show win2_0.index t 1 * 128 + 1 * (x 1).val = (i 1).val; rw [e1, h1]; omega

/-- The node-feature block at point `t` is rows 2000·t … of its array. -/
theorem blk_1 (c : Dev nD) (t : Fin cfg2.N) (x : S2000x128.Idx) (i : S100000x128.Idx)
    (h0 : (i 0).val = 2000 * t.val + (x 0).val) (h1 : (i 1).val = (x 1).val) :
    (iblk2 V c 1 t : Vec Ideal S2000x128 .f32) x = (V c main_v35 : S100000x128.Idx → EReal) i := by
  obtain ⟨-, -, e0, e1, -⟩ := idx_facts t
  unfold iblk2
  rw [View.read_apply]
  show (V c main_v35 : S100000x128.Idx → EReal) _ = _
  refine congrArg (V c main_v35 : S100000x128.Idx → EReal) (funext fun a => Fin.ext ?_)
  match a with
  | ⟨0, _⟩ => show win2_1.index t 0 * 2000 + 1 * (x 0).val = (i 0).val; rw [e0, h0]; omega
  | ⟨1, _⟩ => show win2_1.index t 1 * 128 + 1 * (x 1).val = (i 1).val; rw [e1, h1]; omega

/-- The first matrix's only block is the matrix. -/
theorem blk_2 (c : Dev nD) (t : Fin cfg2.N) (x : S128x128.Idx) :
    (iblk2 V c 2 t : Vec Ideal S128x128 .f32) x = (V c main_v48 : S128x128.Idx → EReal) x := by
  obtain ⟨-, -, -, -, e0, e1, -⟩ := idx_facts t
  unfold iblk2
  rw [View.read_apply]
  show (V c main_v48 : S128x128.Idx → EReal) _ = _
  refine congrArg (V c main_v48 : S128x128.Idx → EReal) (funext fun a => Fin.ext ?_)
  match a with
  | ⟨0, _⟩ => show win2_2.index t 0 * 128 + 1 * (x 0).val = (x 0).val; rw [e0]; omega
  | ⟨1, _⟩ => show win2_2.index t 1 * 128 + 1 * (x 1).val = (x 1).val; rw [e1]; omega

/-- The second matrix's only block is the matrix. -/
theorem blk_3 (c : Dev nD) (t : Fin cfg2.N) (x : S128x128.Idx) :
    (iblk2 V c 3 t : Vec Ideal S128x128 .f32) x = (V c main_v49 : S128x128.Idx → EReal) x := by
  obtain ⟨-, -, -, -, -, -, e0, e1, -⟩ := idx_facts t
  unfold iblk2
  rw [View.read_apply]
  show (V c main_v49 : S128x128.Idx → EReal) _ = _
  refine congrArg (V c main_v49 : S128x128.Idx → EReal) (funext fun a => Fin.ext ?_)
  match a with
  | ⟨0, _⟩ => show win2_3.index t 0 * 128 + 1 * (x 0).val = (x 0).val; rw [e0]; omega
  | ⟨1, _⟩ => show win2_3.index t 1 * 128 + 1 * (x 1).val = (x 1).val; rw [e1]; omega

/-- The bias row's only block is the row. -/
theorem blk_4 (c : Dev nD) (t : Fin cfg2.N) (x : S1x128.Idx) :
    (iblk2 V c 4 t : Vec Ideal S1x128 .f32) x = (V c main_v50 : S1x128.Idx → EReal) x := by
  obtain ⟨-, -, -, -, -, -, -, -, e0, e1, -⟩ := idx_facts t
  unfold iblk2
  rw [View.read_apply]
  show (V c main_v50 : S1x128.Idx → EReal) _ = _
  refine congrArg (V c main_v50 : S1x128.Idx → EReal) (funext fun a => Fin.ext ?_)
  match a with
  | ⟨0, _⟩ => show win2_4.index t 0 * 1 + 1 * (x 0).val = (x 0).val; rw [e0]; omega
  | ⟨1, _⟩ => show win2_4.index t 1 * 128 + 1 * (x 1).val = (x 1).val; rw [e1]; omega

/-- The layer of the arrays the kernel is launched on. -/
abbrev G (c : Dev nD) : S100000x128.Idx → EReal :=
  Cert.Sage.layer false (V c main_v47) (V c main_v35) (V c main_v48) (V c main_v49) (fun q => (V c main_v50 : S1x128.Idx → EReal) (ix2 0 q))

/-- The body's stored value at entry `j` of the block of point `t` is the layer of the whole arrays at the entry `i` of the
    output array that `j` stands for: same column, row 2000·t + the row of `j`. -/
theorem point_eq (c : Dev nD) (t : Fin cfg2.N) (j : S2000x128.Idx) (i : S100000x128.Idx)
    (h0 : (i 0).val = 2000 * t.val + (j 0).val) (h1 : i 1 = j 1) :
    k2_pay1 (F := Ideal) (iblk2 V c 0 t) (iblk2 V c 1 t) (iblk2 V c 2 t) (iblk2 V c 3 t) (iblk2 V c 4 t) j = G V c i := by
  obtain ⟨p, q, rfl⟩ : ∃ (p : Fin 2000) (q : Fin 128), j = ix2 p q := ⟨j 0, j 1, eq_ix2 j⟩
  refine (Body.k2_apply (iblk2 V c 0 t) (iblk2 V c 1 t) (iblk2 V c 2 t) (iblk2 V c 3 t) (iblk2 V c 4 t) p q).trans ?_
  show Cert.Sage.act false _ = Cert.Sage.act false (Cert.Sage.lin 100000 _ _ _ _ _ (i 0) (i 1))
  rw [h1]
  refine congrArg (Cert.Sage.act false) (Cert.Sage.lin_congr 2000 100000 _ _ _ _ _ _ _ _ _ _ p (i 0) q ?_ ?_ ?_ ?_ ?_)
  · intro k; exact blk_0 V c t (ix2 p k) (ix2 (i 0) k) h0 rfl
  · intro k; exact blk_1 V c t (ix2 p k) (ix2 (i 0) k) h0 rfl
  · intro k; exact blk_2 V c t (ix2 k q)
  · intro k; exact blk_3 V c t (ix2 k q)
  · exact blk_4 V c t (ix2 0 q)

/-- What point `t` writes back is block `t` of the layer of the whole arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  obtain ⟨-, -, -, -, -, -, -, -, -, -, e0, e1⟩ := idx_facts t
  funext j
  have hj0 : (j 0).val < 2000 := (j 0).isLt
  have hj1 : (j 1).val < 128 := (j 1).isLt
  refine point_eq V c t j (((cfg2.win 5).blk t).view.emb j) ?_ (Fin.ext ?_)
  · show win2_5.index t 0 * 2000 + 1 * (j 0).val = _; rw [e0]; omega
  · show win2_5.index t 1 * 128 + 1 * (j 1).val = _; rw [e1]; omega

/-- A row of the output array lies in point `t`'s block exactly when it is one of rows 2000·t … 2000·t + 1999. -/
theorem mem_blk (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v51).slice (win2_5.rect t)).set ↔ _
  rw [View.set_slice_whole, Rect.mem_set_unit]
  exact Iff.rfl

/-- Every entry of the output array is in the block of the point its row falls to. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 50 := N_2
  let t : Fin cfg2.N := ⟨(i 0).val / 2000, by rw [hN]; omega⟩
  obtain ⟨-, -, -, -, -, -, -, -, -, -, e0, e1⟩ := idx_facts t
  refine ⟨t, flush2_5 t, ?_⟩
  rw [mem_blk]
  intro a
  have ht : t.val = (i 0).val / 2000 := rfl
  match a with
  | ⟨0, _⟩ => show win2_5.index t 0 * 2000 ≤ (i 0).val ∧ (i 0).val < win2_5.index t 0 * 2000 + 2000; rw [e0, ht]; omega
  | ⟨1, _⟩ => show win2_5.index t 1 * 128 ≤ (i 1).val ∧ (i 1).val < win2_5.index t 1 * 128 + 128; rw [e1]; omega

/-- After the last point the output array is the layer of the arrays the kernel was launched on. -/
theorem final (c : Dev nD) : (dat2 V c).arrAt 5 cfg2.N = G V c :=
  (dat2 V c).arrAt_eq_of_cover 5 (G V c) (fun t _ => flushed_eq V c t) (cover)

end Cert.KernelIdeal.Region2

end
-- ==== Proof.Fold2.lean ====
/-
  The third host stretch and the third layer's kernel, read against the reference's stages.

  As before with the second layer's output: its source rows gathered and scattered onto the destination rows, the
  third layer's weights transposed, its bias as a row. The third kernel leaves the layer function WITHOUT the maximum,
  the reference's third-layer stage.
-/
import proofs.«143830_j79628693668166_2_alg».proof.Proof.Fold1
import proofs.«143830_j79628693668166_2_alg».proof.Proof.Region2
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v1 val_main_v3 val_main_v13 val_main_v14 val_main_v19 val_main_v22 val_main_v32 val_main_v33 val_main_v38 val_main_v41 val_main_v51 val_main_v52 val_main_v57 val_main_v59 val_main_v62 val_main_v63 val_main_v67)

variable (m : (ℓ : Loc nD τ sig) → Buf (Elt Ideal) ℓ) (ρ : Dev nD → PrngReg)

/-! ## After the third stretch -/

/-- The third neighbour sums are the reference's. -/
theorem v5_v47 (c : Dev nD) : V5 m ρ c main_v47 = val_main_v51 (F := Ideal) (a0 m c) (a1 m c) (a3 m c) (a4 m c) (a5 m c) (a6 m c) (a7 m c) (a8 m c) := by
  show StableHlo.after hostOps2 (W4 m ρ c) (Proc.devRef .tc main_v47) = _
  dsimp only [hostOps2]
  after_results_simp
  rw [w4_v35 m ρ c, w4_v1 m ρ c, w4_v3 m ρ c] <;> rfl

/-- The second layer's output is not written by the stretch. -/
theorem v5_v35 (c : Dev nD) : V5 m ρ c main_v35 = val_main_v41 (F := Ideal) (a0 m c) (a1 m c) (a3 m c) (a4 m c) (a5 m c) (a6 m c) (a7 m c) (a8 m c) := by
  show StableHlo.after hostOps2 (W4 m ρ c) (Proc.devRef .tc main_v35) = _
  dsimp only [hostOps2]
  after_results_simp
  exact w4_v35 m ρ c

/-- The third layer's first weight matrix, transposed. -/
theorem v5_v48 (c : Dev nD) : V5 m ρ c main_v48 = val_main_v52 (F := Ideal) (a9 m c) := by
  show StableHlo.after hostOps2 (W4 m ρ c) (Proc.devRef .tc main_v48) = _
  dsimp only [hostOps2]
  after_results_simp
  rw [w4_arg9 m ρ c] <;> rfl

/-- The third layer's second weight matrix, transposed. -/
theorem v5_v49 (c : Dev nD) : V5 m ρ c main_v49 = val_main_v57 (F := Ideal) (a11 m c) := by
  show StableHlo.after hostOps2 (W4 m ρ c) (Proc.devRef .tc main_v49) = _
  dsimp only [hostOps2]
  after_results_simp
  rw [w4_arg11 m ρ c] <;> rfl

/-- The third layer's bias as a row. -/
theorem v5_v50 (c : Dev nD) : V5 m ρ c main_v50 = shapeCast S1x128 (a10 m c) shapeCasts_S128_S1x128 := by
  show StableHlo.after hostOps2 (W4 m ρ c) (Proc.devRef .tc main_v50) = _
  dsimp only [hostOps2]
  after_results_simp
  rw [w4_arg10 m ρ c] <;> rfl

/-- Carried through the stretch. -/
theorem w5_arg2 (c : Dev nD) : W5 m ρ c (Proc.devRef .tc main_arg2) = (a2 m c) := by
  show StableHlo.after hostOps2 (W4 m ρ c) (Proc.devRef .tc main_arg2) = _
  dsimp only [hostOps2]
  after_results_simp
  exact w4_arg2 m ρ c
theorem w5_arg12 (c : Dev nD) : W5 m ρ c (Proc.devRef .tc main_arg12) = (a12 m c) := by
  show StableHlo.after hostOps2 (W4 m ρ c) (Proc.devRef .tc main_arg12) = _
  dsimp only [hostOps2]
  after_results_simp
  exact w4_arg12 m ρ c
theorem w5_arg13 (c : Dev nD) : W5 m ρ c (Proc.devRef .tc main_arg13) = (a13 m c) := by
  show StableHlo.after hostOps2 (W4 m ρ c) (Proc.devRef .tc main_arg13) = _
  dsimp only [hostOps2]
  after_results_simp
  exact w4_arg13 m ρ c

/-! ## After the third kernel -/

/-- The third kernel's output is the reference's third-layer stage. -/
theorem w6_v51 (c : Dev nD) : W6 m ρ c (Proc.devRef .tc main_v51) = val_main_v59 (F := Ideal) (a0 m c) (a1 m c) (a3 m c) (a4 m c) (a5 m c) (a6 m c) (a7 m c) (a8 m c) (a9 m c) (a10 m c) (a11 m c) := by
  refine (W6_arr m ρ c 5).trans ?_
  rw [Region2.final (V5 m ρ) c]
  dsimp only [Region2.G]
  rw [v5_v47 m ρ c, v5_v35 m ρ c, v5_v48 m ρ c, v5_v49 m ρ c, v5_v50 m ρ c, bias128, Cert.ReferenceIdeal.Layers.layer3]

/-- The kernel writes none of these. -/
theorem w6_arg2 (c : Dev nD) : W6 m ρ c (Proc.devRef .tc main_arg2) = (a2 m c) :=
  (W6_of_ne m ρ c main_arg2 (by decide)).trans (w5_arg2 m ρ c)
theorem w6_arg12 (c : Dev nD) : W6 m ρ c (Proc.devRef .tc main_arg12) = (a12 m c) :=
  (W6_of_ne m ρ c main_arg12 (by decide)).trans (w5_arg12 m ρ c)
theorem w6_arg13 (c : Dev nD) : W6 m ρ c (Proc.devRef .tc main_arg13) = (a13 m c) :=
  (W6_of_ne m ρ c main_arg13 (by decide)).trans (w5_arg13 m ρ c)

end Cert.KernelIdeal.Fold

end
-- ==== Proof.Region3.lean ====
/-
  The read-out kernel, read as one function of the arrays it is launched on.

  Its grid is a single point: the kernel is handed the 64 × 128 per-graph sums, the 128 × 10 class matrix and the
  1 × 10 bias row whole, and writes the whole 64 × 10 result. Entry (g, c) of what it stores is
  `Cert.Sage.outAt` of the three arrays, and the one block is the array.
-/
import proofs.«143830_j79628693668166_2_alg».proof.Proof.Gen.KernelIdeal.Frame
import proofs.«143830_j79628693668166_2_alg».proof.Proof.Payload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Every window shows its only block at the only point. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 ∧ True :=
  (by decide +kernel : ∀ t : Fin grid3.N, _)

/-- The per-graph sums' only block is the array. -/
theorem blk_0 (c : Dev nD) (t : Fin cfg3.N) (x : S64x128.Idx) :
    (iblk3 V c 0 t : Vec Ideal S64x128 .f32) x = (V c main_v54 : S64x128.Idx → EReal) x := by
  obtain ⟨e0, e1, -⟩ := idx_facts t
  unfold iblk3
  rw [View.read_apply]
  show (V c main_v54 : S64x128.Idx → EReal) _ = _
  refine congrArg (V c main_v54 : S64x128.Idx → EReal) (funext fun a => Fin.ext ?_)
  match a with
  | ⟨0, _⟩ => show win3_0.index t 0 * 64 + 1 * (x 0).val = (x 0).val; rw [e0]; omega
  | ⟨1, _⟩ => show win3_0.index t 1 * 128 + 1 * (x 1).val = (x 1).val; rw [e1]; omega

/-- The class matrix's only block is the matrix. -/
theorem blk_1 (c : Dev nD) (t : Fin cfg3.N) (x : S128x10.Idx) :
    (iblk3 V c 1 t : Vec Ideal S128x10 .f32) x = (V c main_v55 : S128x10.Idx → EReal) x := by
  obtain ⟨-, -, e0, e1, -⟩ := idx_facts t
  unfold iblk3
  rw [View.read_apply]
  show (V c main_v55 : S128x10.Idx → EReal) _ = _
  refine congrArg (V c main_v55 : S128x10.Idx → EReal) (funext fun a => Fin.ext ?_)
  match a with
  | ⟨0, _⟩ => show win3_1.index t 0 * 128 + 1 * (x 0).val = (x 0).val; rw [e0]; omega
  | ⟨1, _⟩ => show win3_1.index t 1 * 10 + 1 * (x 1).val = (x 1).val; rw [e1]; omega

/-- The bias row's only block is the row. -/
theorem blk_2 (c : Dev nD) (t : Fin cfg3.N) (x : S1x10.Idx) :
    (iblk3 V c 2 t : Vec Ideal S1x10 .f32) x = (V c main_v56 : S1x10.Idx → EReal) x := by
  obtain ⟨-, -, -, -, e0, e1, -⟩ := idx_facts t
  unfold iblk3
  rw [View.read_apply]
  show (V c main_v56 : S1x10.Idx → EReal) _ = _
  refine congrArg (V c main_v56 : S1x10.Idx → EReal) (funext fun a => Fin.ext ?_)
  match a with
  | ⟨0, _⟩ => show win3_2.index t 0 * 1 + 1 * (x 0).val = (x 0).val; rw [e0]; omega
  | ⟨1, _⟩ => show win3_2.index t 1 * 10 + 1 * (x 1).val = (x 1).val; rw [e1]; omega

/-- The read-out of the arrays the kernel is launched on. -/
abbrev G (c : Dev nD) : S64x10.Idx → EReal :=
  Cert.Sage.out (V c main_v54) (V c main_v55) (fun q => (V c main_v56 : S1x10.Idx → EReal) (ix2 0 q))

/-- The body's stored value at an entry is the read-out of the whole arrays at that entry. -/
theorem point_eq (c : Dev nD) (t : Fin cfg3.N) (j : S64x10.Idx) :
    k3_pay1 (F := Ideal) (iblk3 V c 0 t) (iblk3 V c 1 t) (iblk3 V c 2 t) j = G V c j := by
  obtain ⟨p, q, rfl⟩ : ∃ (p : Fin 64) (q : Fin 10), j = ix2 p q := ⟨j 0, j 1, eq_ix2 j⟩
  refine (Body.k3_apply (iblk3 V c 0 t) (iblk3 V c 1 t) (iblk3 V c 2 t) p q).trans ?_
  show Cert.Sage.outAt _ _ _ p q = Cert.Sage.outAt _ _ _ p q
  unfold Cert.Sage.outAt
  refine congrArg₂ (· + ·) (Finset.sum_congr rfl fun k _ => ?_) (blk_2 V c t (ix2 0 q))
  rw [blk_0 V c t (ix2 p k), blk_1 V c t (ix2 k q)]

/-- What the one point writes back is the (only) block of the read-out of the whole arrays. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S64x128) hz, View.ld_unit_zero (S := S128x10) hz, View.ld_unit_zero (S := S1x10) hz]
  obtain ⟨-, -, -, -, -, -, e0, e1, -⟩ := idx_facts t
  funext j
  have hj0 : (j 0).val < 64 := (j 0).isLt
  have hj1 : (j 1).val < 10 := (j 1).isLt
  have he : ((cfg3.win 3).blk t).view.emb j = j := funext fun a => Fin.ext (by
    match a with
    | ⟨0, _⟩ => show win3_3.index t 0 * 64 + 1 * (j 0).val = (j 0).val; rw [e0]; omega
    | ⟨1, _⟩ => show win3_3.index t 1 * 10 + 1 * (j 1).val = (j 1).val; rw [e1]; omega)
  show k3_pay1 (F := Ideal) (iblk3 V c 0 t) (iblk3 V c 1 t) (iblk3 V c 2 t) j = G V c (((cfg3.win 3).blk t).view.emb j)
  rw [he]
  exact point_eq V c t j

/-- An entry of the result array lies in the one block: the block's ranges are the array's. -/
theorem mem_blk (t : Fin cfg3.N) (i : S64x10.Idx) :
    i ∈ ((cfg3.win 3).blk t).view.set ↔ ∀ a : Fin 2, win3_3.index t a * S64x10.size a ≤ (i a).val ∧ (i a).val < win3_3.index t a * S64x10.size a + S64x10.size a := by
  show i ∈ ((View.whole main_v57).slice (win3_3.rect t)).set ↔ _
  rw [View.set_slice_whole, Rect.mem_set_unit]
  exact Iff.rfl

/-- Every entry of the result array is in the one point's block. -/
theorem cover (i : S64x10.Idx) : ∃ t : Fin cfg3.N, (cfg3.win 3).flush t = true ∧ i ∈ ((cfg3.win 3).blk t).view.set := by
  have hi0 : (i 0).val < 64 := (i 0).isLt
  have hi1 : (i 1).val < 10 := (i 1).isLt
  obtain ⟨-, -, -, -, -, -, e0, e1, -⟩ := idx_facts t3_0
  refine ⟨t3_0, flush3_3 t3_0, ?_⟩
  rw [mem_blk]
  intro a
  match a with
  | ⟨0, _⟩ => show win3_3.index t3_0 0 * 64 ≤ (i 0).val ∧ (i 0).val < win3_3.index t3_0 0 * 64 + 64; rw [e0]; omega
  | ⟨1, _⟩ => show win3_3.index t3_0 1 * 10 ≤ (i 1).val ∧ (i 1).val < win3_3.index t3_0 1 * 10 + 10; rw [e1]; omega

/-- After the one point the result array is the read-out of the arrays the kernel was launched on. -/
theorem final (c : Dev nD) : (dat3 V c).arrAt 3 cfg3.N = G V c :=
  (dat3 V c).arrAt_eq_of_cover 3 (G V c) (fun t _ => flushed_eq V c t) (cover)

end Cert.KernelIdeal.Region3

end
-- ==== Proof.Fold3.lean ====
/-
  The last host stretch and the read-out kernel: the kernel program's result is the reference's.

  The last stretch scatters the third layer's rows additively onto their graphs (64 of them), transposes the class
  matrix and lays the class bias out as a row: the reference's terms. The read-out kernel leaves `Cert.Sage.out` of
  those, the reference's last stage. So the result buffer at the last boundary holds exactly the reference's result
  term of the launch arguments.
-/
import proofs.«143830_j79628693668166_2_alg».proof.Proof.Fold2
import proofs.«143830_j79628693668166_2_alg».proof.Proof.Region3
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read (val_main_v1 val_main_v3 val_main_v13 val_main_v14 val_main_v19 val_main_v22 val_main_v32 val_main_v33 val_main_v38 val_main_v41 val_main_v51 val_main_v52 val_main_v57 val_main_v59 val_main_v62 val_main_v63 val_main_v67)

variable (m : (ℓ : Loc nD τ sig) → Buf (Elt Ideal) ℓ) (ρ : Dev nD → PrngReg)

/-! ## After the last stretch -/

/-- The per-graph sums are the reference's. -/
theorem v7_v54 (c : Dev nD) : V7 m ρ c main_v54 = val_main_v62 (F := Ideal) (a0 m c) (a1 m c) (a2 m c) (a3 m c) (a4 m c) (a5 m c) (a6 m c) (a7 m c) (a8 m c) (a9 m c) (a10 m c) (a11 m c) := by
  show StableHlo.after hostOps3 (W6 m ρ c) (Proc.devRef .tc main_v54) = _
  dsimp only [hostOps3]
  after_results_simp
  rw [w6_v51 m ρ c, w6_arg2 m ρ c] <;> rfl

/-- The class matrix, transposed. -/
theorem v7_v55 (c : Dev nD) : V7 m ρ c main_v55 = val_main_v63 (F := Ideal) (a12 m c) := by
  show StableHlo.after hostOps3 (W6 m ρ c) (Proc.devRef .tc main_v55) = _
  dsimp only [hostOps3]
  after_results_simp
  rw [w6_arg12 m ρ c] <;> rfl

/-- The class bias as a row. -/
theorem v7_v56 (c : Dev nD) : V7 m ρ c main_v56 = shapeCast S1x10 (a13 m c) shapeCasts_S10_S1x10 := by
  show StableHlo.after hostOps3 (W6 m ρ c) (Proc.devRef .tc main_v56) = _
  dsimp only [hostOps3]
  after_results_simp
  rw [w6_arg13 m ρ c] <;> rfl

/-! ## After the read-out kernel -/

/-- THE VALUE: at the last boundary the result buffer holds the reference's last stage of the launch arguments. -/
theorem w8_v57 (c : Dev nD) : W8 m ρ c (Proc.devRef .tc main_v57) = val_main_v67 (F := Ideal) (a0 m c) (a1 m c) (a2 m c) (a3 m c) (a4 m c) (a5 m c) (a6 m c) (a7 m c) (a8 m c) (a9 m c) (a10 m c) (a11 m c) (a12 m c) (a13 m c) := by
  refine (W8_arr m ρ c 3).trans ?_
  rw [Region3.final (V7 m ρ) c]
  dsimp only [Region3.G]
  rw [v7_v54 m ρ c, v7_v55 m ρ c, v7_v56 m ρ c, bias10, Cert.ReferenceIdeal.Layers.readout]

end Cert.KernelIdeal.Fold

end
-- ==== Proof.lean ====
/-
  Three rounds of neighbourhood aggregation over a graph of 100000 nodes and 1600000 edges, a sum of the node rows
  per graph, and a linear read-out: the kernel program against its reference, over the extended reals.

  Both programs compute, per layer, the neighbour sums  agg = Σ over edges (s → d) of h[s]  on the host (the kernel
  program narrows h's float format around the gather, which changes no extended real), then

      h' = act( agg · Wlᵀ + h · Wrᵀ + b ),

  the reference by two host contractions and two additions, the kernel program by a gridded kernel that does the same
  on 2000-row blocks with both weight matrices resident. The two differ only in the order the three summands are added
  and in how the rows are tiled, and addition of extended reals is commutative and associative: no entry needs to be
  finite for the two to agree, so the precondition is never opened. After the third layer both sum the rows of each
  of the 64 graphs on the host and apply one more contraction plus bias (the kernel program in a one-point kernel).

  The proof: each kernel's output array is one function of the arrays it is launched on (Region0 … Region3, over
  the stored values read entry by entry in Payload); the reference's stages are the same functions (RefLayers); the
  buffers' contents at the boundaries between host stretches and kernels are a fold from the launch memory, read
  stretch by stretch against the reference's stages (Fold0 … Fold3); the run ends with every buffer at the fold's last
  value (WholeRun). The kernel program's idealization rewrote nothing, so it is the program's own text read over the
  extended reals and the idealization claim has no conjunct.
-/
import proofs.«143830_j79628693668166_2_alg».proof.Defs
import proofs.«143830_j79628693668166_2_alg».proof.Proof.Gen.Kernel
import proofs.«143830_j79628693668166_2_alg».proof.Proof.Gen.Kernel.Skeleton
import proofs.«143830_j79628693668166_2_alg».proof.Proof.Gen.Kernel.Launch
import proofs.«143830_j79628693668166_2_alg».proof.Proof.Gen.Kernel.Points
import proofs.«143830_j79628693668166_2_alg».proof.Proof.Gen.Kernel.Frame
import proofs.«143830_j79628693668166_2_alg».proof.Proof.Gen.KernelIdeal
import proofs.«143830_j79628693668166_2_alg».proof.Proof.Gen.KernelIdeal.Skeleton
import proofs.«143830_j79628693668166_2_alg».proof.Proof.Gen.KernelIdeal.Launch
import proofs.«143830_j79628693668166_2_alg».proof.Proof.Gen.KernelIdeal.Points
import proofs.«143830_j79628693668166_2_alg».proof.Proof.Gen.KernelIdeal.Frame
import proofs.«143830_j79628693668166_2_alg».proof.Proof.Gen.ReferenceIdeal
import proofs.«143830_j79628693668166_2_alg».proof.Proof.Gen.ReferenceIdeal.Run
import proofs.«143830_j79628693668166_2_alg».proof.Proof.Gen.ReferenceIdeal.Read
import proofs.«143830_j79628693668166_2_alg».proof.Proof.Gen.Pre_finite_inputs
import proofs.«143830_j79628693668166_2_alg».proof.Proof.WholeRun
import proofs.«143830_j79628693668166_2_alg».proof.Proof.Fold3
import Idealize.ShloMosaic.Adequacy
import Idealize.ShloMosaic.Init

noncomputable section

namespace Cert.Proof

open Idealize.ShloMosaic Idealize.ShloMosaic.TcCoe Idealize.SL.Sem

/-- The kernel program as printed runs, faults nowhere and leaves its arguments as launched. -/
theorem frame_kernel : Cert.frame_Kernel := fun m ρ _ => Cert.Kernel.Gen.frame m ρ

/-- The same of the kernel program read over the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From launch memories that agree on the fourteen arguments both programs run and end with the same 64 × 10 result:
    the reference's last stage of the arguments. The kernel program's run ends with every buffer at the fold's last
    value, which at the result buffer is that stage and at each argument the launch contents; the reference's run
    ends at its own composed term, which is that stage of its arguments, and those are the kernel program's. -/
theorem algebraic : Cert.algebraic_KernelIdeal_ReferenceIdeal := by
  intro m ρ m' ρ' _ hagree
  refine ⟨fun c => Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.Whole.run (F := Ideal) m ρ)
    exact ⟨(h c Cert.KernelIdeal.main_v57 (by decide)).trans (Cert.KernelIdeal.Fold.w8_v57 m ρ c),
      (h c Cert.KernelIdeal.main_arg0 (by decide)).trans (Cert.KernelIdeal.Gen.W8_main_arg0 m ρ c),
      (h c Cert.KernelIdeal.main_arg1 (by decide)).trans (Cert.KernelIdeal.Gen.W8_main_arg1 m ρ c),
      (h c Cert.KernelIdeal.main_arg2 (by decide)).trans (Cert.KernelIdeal.Gen.W8_main_arg2 m ρ c),
      (h c Cert.KernelIdeal.main_arg3 (by decide)).trans (Cert.KernelIdeal.Gen.W8_main_arg3 m ρ c),
      (h c Cert.KernelIdeal.main_arg4 (by decide)).trans (Cert.KernelIdeal.Gen.W8_main_arg4 m ρ c),
      (h c Cert.KernelIdeal.main_arg5 (by decide)).trans (Cert.KernelIdeal.Gen.W8_main_arg5 m ρ c),
      (h c Cert.KernelIdeal.main_arg6 (by decide)).trans (Cert.KernelIdeal.Gen.W8_main_arg6 m ρ c),
      (h c Cert.KernelIdeal.main_arg7 (by decide)).trans (Cert.KernelIdeal.Gen.W8_main_arg7 m ρ c),
      (h c Cert.KernelIdeal.main_arg8 (by decide)).trans (Cert.KernelIdeal.Gen.W8_main_arg8 m ρ c),
      (h c Cert.KernelIdeal.main_arg9 (by decide)).trans (Cert.KernelIdeal.Gen.W8_main_arg9 m ρ c),
      (h c Cert.KernelIdeal.main_arg10 (by decide)).trans (Cert.KernelIdeal.Gen.W8_main_arg10 m ρ c),
      (h c Cert.KernelIdeal.main_arg11 (by decide)).trans (Cert.KernelIdeal.Gen.W8_main_arg11 m ρ c),
      (h c Cert.KernelIdeal.main_arg12 (by decide)).trans (Cert.KernelIdeal.Gen.W8_main_arg12 m ρ c),
      (h c Cert.KernelIdeal.main_arg13 (by decide)).trans (Cert.KernelIdeal.Gen.W8_main_arg13 m ρ c)⟩
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v67_eq, e0, e1, e2, e3, e4, e5, e6, e7, e8, e9, e10, e11, e12, e13]

/-- The five claims, under the generated witnesses of the programs' stated side conditions. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
